-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x256 .f32) (main_arg1 : IVec S1600000 32) (main_arg2 : IVec S1600000 32) (main_arg3 : FVec F S256x128 .f32) (main_arg4 : FVec F S128 .f32) (main_arg5 : FVec F S128x40 .f32) (main_arg6 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg5
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg6 main_v13 main_v16
-- ==== Kernel.lean ====
abbrev S50000x256 : Shape := ⟨2, ![50000, 256]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1x128 : Shape := ⟨2, ![1, 128]⟩
abbrev S1x40 : Shape := ⟨2, ![1, 40]⟩
abbrev S50000x128 : Shape := ⟨2, ![50000, 128]⟩
abbrev S5000x256 : Shape := ⟨2, ![5000, 256]⟩
abbrev S5000x1 : Shape := ⟨2, ![5000, 1]⟩
abbrev S5000x128 : Shape := ⟨2, ![5000, 128]⟩
abbrev S1600000x128 : Shape := ⟨2, ![1600000, 128]⟩
abbrev S50000x40 : Shape := ⟨2, ![50000, 40]⟩
abbrev S5000x40 : Shape := ⟨2, ![5000, 40]⟩
abbrev S1600000x40 : Shape := ⟨2, ![1600000, 40]⟩
abbrev S5000 : Shape := ⟨1, ![5000]⟩

abbrev nBuf : Space → Nat
  | .hbm => 72
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S1600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x1, .f32⟩
  | .hbm, ⟨41, _⟩ => ⟨S1x128, .f32⟩
  | .hbm, ⟨42, _⟩ => ⟨S1x40, .f32⟩
  | .hbm, ⟨43, _⟩ => ⟨S50000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S50000x128, .f32⟩
  | .hbm, ⟨55, _⟩ => ⟨S1600000x1, .i32⟩
  | .hbm, ⟨56, _⟩ => ⟨S50000x128, .f32⟩
  | .hbm, ⟨57, _⟩ => ⟨S50000x40, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x40, .f32⟩
  | .hbm, ⟨67, _⟩ => ⟨S_, .f32⟩
  | .hbm, ⟨68, _⟩ => ⟨S50000x40, .f32⟩
  | .hbm, ⟨69, _⟩ => ⟨S1600000x1, .i32⟩
  | .hbm, ⟨70, _⟩ => ⟨S50000x40, .f32⟩
  | .hbm, ⟨71, _⟩ => ⟨S50000x40, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S128x40, .f32⟩
  | .local _ .vmem, ⟨15, _⟩ => ⟨S5000x40, .f32⟩
  | .local _ .vmem, ⟨16, _⟩ => ⟨S5000x40, .f32⟩
  | .local _ .vmem, ⟨17, _⟩ => ⟨S5000x40, .f32⟩
  | .local _ .vmem, ⟨18, _⟩ => ⟨S5000x40, .f32⟩
  | .local _ .vmem, ⟨19, _⟩ => ⟨S5000x1, .f32⟩
  | .local _ .vmem, ⟨20, _⟩ => ⟨S5000x1, .f32⟩
  | .local _ .vmem, ⟨21, _⟩ => ⟨S1x40, .f32⟩
  | .local _ .vmem, ⟨22, _⟩ => ⟨S5000x40, .f32⟩
  | .local _ .vmem, ⟨23, _⟩ => ⟨S5000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c : Ref sig .tc := ⟨.hbm, 44, rfl⟩
abbrev main_v24 : Ref sig .tc := ⟨.hbm, 45, rfl⟩
abbrev main_v25 : Ref sig .tc := ⟨.hbm, 46, rfl⟩
abbrev main_c_8 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_9 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_10 : Ref sig .tc := ⟨.hbm, 58, rfl⟩
abbrev main_v35 : Ref sig .tc := ⟨.hbm, 59, rfl⟩
abbrev main_v36 : Ref sig .tc := ⟨.hbm, 60, rfl⟩
abbrev main_c_11 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_12 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  shapeCasts_S128_S1x128 : S128.ShapeCasts S1x128
  shapeCasts_S40_S1x40 : S40.ShapeCasts S1x40
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S_S50000x40 : S_.BroadcastsInDim S50000x40 (![] : Fin 0 → Fin S50000x40.rank)
  shapeCasts_S5000x40_S5000x40 : S5000x40.ShapeCasts S5000x40
  broadcasts_S5000x1_S5000x40 : S5000x1.Broadcasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  scatter_S50000_S1600000x1_S1600000_n_0_0_1_wf : ScatterDims.WF S50000 S1600000x1 S1600000 [] [0] [0] 1
  dot_S5000x256_S256x128_S5000x128_1_0_0_1_n_n_wf : DotDims.WF S5000x256 S256x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x40_S5000x40_1_0_0_1_n_n_wf : DotDims.WF S5000x128 S128x40 S5000x40 [1] [0] [0] [1] [] []
  gather_S50000x40_S1600000x1_S1600000x40_1_0_n_n_0_1_140_wf : GatherDims.WF S50000x40 S1600000x1 S1600000x40 [1] [0] [] [0] [] 1 ![1, 40]
  scatter_S50000x40_S1600000x1_S1600000x40_1_0_0_1_wf : ScatterDims.WF S50000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x40.size a ≤ S128x40.size a
  hwx1_4 : ∀ i : grid1.Coords, EltTy.bits .f32 = 32 ∨ (Rect.block (s := S128x40) S128x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S50000x40.size a
  hwx1_5 : ∀ i : grid1.Coords, EltTy.bits .f32 = 32 ∨ (Rect.block (s := S50000x40) S5000x40.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S50000x40.size a
  hwx2_0 : ∀ i : grid2.Coords, EltTy.bits .f32 = 32 ∨ (Rect.block (s := S50000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S50000x40.size a
  hwx2_3 : ∀ i : grid2.Coords, EltTy.bits .f32 = 32 ∨ (Rect.block (s := S50000x40) S5000x40.size (cc2_transform_3 i) (hinb2_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S1600000x1_S1600000x40_1_0_n_n_0_1_140 : GatherDims S50000x40 S1600000x1 S1600000x40 where
  offsetDims := [1]
  collapsedSliceDims := [0]
  operandBatchingDims := []
  startIndicesBatchingDims := []
  startIndexMap := [0]
  indexVectorDim := 1
  sliceSizes := ![1, 40]
  wf := gather_S50000x40_S1600000x1_S1600000x40_1_0_n_n_0_1_140_wf
def scatter_S50000x40_S1600000x1_S1600000x40_1_0_0_1 : ScatterDims S50000x40 S1600000x1 S1600000x40 where
  updateWindowDims := [1]
  insertedWindowDims := [0]
  scatterDimsToOperandDims := [0]
  indexVectorDim := 1
  wf := scatter_S50000x40_S1600000x1_S1600000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x128 : Shape := ⟨2, ![50000, 128]⟩
abbrev S1600000x128 : Shape := ⟨2, ![1600000, 128]⟩
abbrev S1x128 : Shape := ⟨2, ![1, 128]⟩
abbrev S50000x40 : Shape := ⟨2, ![50000, 40]⟩
abbrev S1600000x40 : Shape := ⟨2, ![1600000, 40]⟩
abbrev S1x40 : Shape := ⟨2, ![1, 40]⟩

abbrev nBuf : Space → Nat
  | .hbm => 100
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S1600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x256, .f32⟩
  | .hbm, ⟨41, _⟩ => ⟨S50000x256, .f32⟩
  | .hbm, ⟨42, _⟩ => ⟨S50000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S50000x128, .f32⟩
  | .hbm, ⟨54, _⟩ => ⟨S1600000x1, .i32⟩
  | .hbm, ⟨55, _⟩ => ⟨S50000x128, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S50000x40, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x40, .f32⟩
  | .hbm, ⟨75, _⟩ => ⟨S_, .f32⟩
  | .hbm, ⟨76, _⟩ => ⟨S50000x40, .f32⟩
  | .hbm, ⟨77, _⟩ => ⟨S1600000x1, .i32⟩
  | .hbm, ⟨78, _⟩ => ⟨S50000x40, .f32⟩
  | .hbm, ⟨79, _⟩ => ⟨S50000x1, .f32⟩
  | .hbm, ⟨80, _⟩ => ⟨S50000x40, .f32⟩
  | .hbm, ⟨81, _⟩ => ⟨S50000x40, .f32⟩
  | .hbm, ⟨82, _⟩ => ⟨S1x40, .f32⟩
  | .hbm, ⟨83, _⟩ => ⟨S50000x40, .f32⟩
  | .hbm, ⟨84, _⟩ => ⟨S50000x40, .f32⟩
  | .hbm, ⟨85, _⟩ => ⟨S_, .f32⟩
  | .hbm, ⟨86, _⟩ => ⟨S50000, .f32⟩
  | .hbm, ⟨87, _⟩ => ⟨S_, .f32⟩
  | .hbm, ⟨88, _⟩ => ⟨S50000, .f32⟩
  | .hbm, ⟨89, _⟩ => ⟨S50000, .f32⟩
  | .hbm, ⟨90, _⟩ => ⟨S50000x1, .f32⟩
  | .hbm, ⟨91, _⟩ => ⟨S50000x40, .f32⟩
  | .hbm, ⟨92, _⟩ => ⟨S50000x40, .f32⟩
  | .hbm, ⟨93, _⟩ => ⟨S50000x40, .f32⟩
  | .hbm, ⟨94, _⟩ => ⟨S_, .f32⟩
  | .hbm, ⟨95, _⟩ => ⟨S50000, .f32⟩
  | .hbm, ⟨96, _⟩ => ⟨S50000x1, .f32⟩
  | .hbm, ⟨97, _⟩ => ⟨S50000x1, .f32⟩
  | .hbm, ⟨98, _⟩ => ⟨S50000x40, .f32⟩
  | .hbm, ⟨99, _⟩ => ⟨S50000x40, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_10 : Ref sig .tc := ⟨.hbm, 66, rfl⟩
abbrev main_v43 : Ref sig .tc := ⟨.hbm, 67, rfl⟩
abbrev main_v44 : Ref sig .tc := ⟨.hbm, 68, rfl⟩
abbrev main_c_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_12 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call2_cst : Ref sig .tc := ⟨.hbm, 85, rfl⟩
abbrev main_call2_v0 : Ref sig .tc := ⟨.hbm, 86, rfl⟩
abbrev main_call2_cst_0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_cst_1 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_v59 : Ref sig .tc := ⟨.hbm, 99, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x40 : S_.BroadcastsInDim S50000x40 (![] : Fin 0 → Fin S50000x40.rank)
  bcast_S50000x1_S50000x40_0_1 : S50000x1.BroadcastsInDim S50000x40 (![0, 1] : Fin 2 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  scatter_S50000_S1600000x1_S1600000_n_0_0_1_wf : ScatterDims.WF S50000 S1600000x1 S1600000 [] [0] [0] 1
  dot_S50000x256_S256x128_S50000x128_1_0_0_1_n_n_wf : DotDims.WF S50000x256 S256x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x40_S50000x40_1_0_0_1_n_n_wf : DotDims.WF S50000x128 S128x40 S50000x40 [1] [0] [0] [1] [] []
  gather_S50000x40_S1600000x1_S1600000x40_1_0_n_n_0_1_140_wf : GatherDims.WF S50000x40 S1600000x1 S1600000x40 [1] [0] [] [0] [] 1 ![1, 40]
  scatter_S50000x40_S1600000x1_S1600000x40_1_0_0_1_wf : ScatterDims.WF S50000x40 S1600000x1 S1600000x40 [1] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S1600000x1_S1600000x40_1_0_n_n_0_1_140 : GatherDims S50000x40 S1600000x1 S1600000x40 where
  offsetDims := [1]
  collapsedSliceDims := [0]
  operandBatchingDims := []
  startIndicesBatchingDims := []
  startIndexMap := [0]
  indexVectorDim := 1
  sliceSizes := ![1, 40]
  wf := gather_S50000x40_S1600000x1_S1600000x40_1_0_n_n_0_1_140_wf
def scatter_S50000x40_S1600000x1_S1600000x40_1_0_0_1 : ScatterDims S50000x40 S1600000x1 S1600000x40 where
  updateWindowDims := [1]
  insertedWindowDims := [0]
  scatterDimsToOperandDims := [0]
  indexVectorDim := 1
  wf := scatter_S50000x40_S1600000x1_S1600000x40_1_0_0_1_wf

class Facts : Prop extends Facts₀ where

variable [Facts]
-- ==== Proof.KernelResultRun.lean ====
/-
  The kernel program's run, with the result array in its post.

  @main is ten segments in order: five stretches of host operations (the two degree factors and the reshapes of the
  factors and biases), the first region, the first edge step, the second region, the second edge step, the third
  region. The run below is the same run as the frame's — every weakly fair execution terminates, nothing faults — read
  at one more buffer when it ends: besides the seven argument arrays, which end as launched, the result array
  `main_v45` ends at the contents `W10` that the last segment boundary holds for it, the fold of the segments over the
  launch memory. What that fold holds there is worked out in the next module.
-/
import proofs.«110680_j63376537420316_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of @main on the TensorCores terminates, nothing
    faulting; the result array ends at the last boundary's contents for it, and the argument arrays end as launched. -/
theorem run_result : θ_run defs (onTc (τ := τ) (main (F := F))) ⟨m, fun _ => 0, ρ⟩ (fun r => ∀ c : Dev nD,
      r.2.mem ((c.tc : Thread nD τ).loc main_v45) = W10 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v45 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.ResultRun

end
-- ==== Proof.GraphLayers.lean ====
/-
  The mathematics both programs compute, stated once, index by index, on the extended reals.

  The network has 50000 nodes and 1.6 million directed edges (src e → dst e). With d_out and d_in the
  per-node factors (the inverse square roots of the out- and in-degrees, zero at an isolated node), one layer is

      Y = D_in · A · (D_out · X · W) + b,

  where A sums, at each node, the rows of its in-neighbours. Both programs split a layer at the two places where
  the graph enters: the dense step before the edges (a row-scaled matrix product), the edge step (gather the rows at
  the sources, add them up at the destinations), and the dense step after the edges (scale the row, add the bias).
  The edge step is the same host computation in both programs and is never opened here. What is written here are the
  three dense steps, each a function of whole arrays read at an index (r, c):

    * `scaledProduct`   (r, c) ↦ Σ_k (X[r,k] · s[r]) · W[k,c]                                   — layer 1 before the edges;
    * `affineScaledProduct` (r, c) ↦ Σ_k ((A[r,k] · p[r] + b[k]) · q[r]) · W[k,c]              — layer 1 after the edges
      fused with layer 2 before the edges;
    * `affineLogSoftmax` (r, c) ↦ z[r,c] − log Σ_j exp z[r,j], where h[r,j] = A[r,j] · p[r] + b[j],
      z[r,j] = h[r,j] − max(−∞, max_j h[r,j])                                                     — layer 2 after the edges,
      followed by the row-wise log-softmax.

  The per-node factors arrive as one-column arrays [50000, 1] and the biases as one-row arrays [1, n]: that is the
  form in which both programs hold them when they use them.

  Every product and sum is the extended reals' own; no law of arithmetic is used to relate the two programs at these
  steps beyond 0 + x = x (a matrix product accumulated from zero) and max(−∞, x) = x (a maximum taken from −∞), so no
  finiteness of the inputs is needed.
-/
import Idealize.ShloMosaic.PureOps.Ideal
import Idealize.ShloMosaic.Lib.ValueIdx

noncomputable section

namespace Cert.GraphLayers

open Idealize.ShloMosaic Idealize.ShloMosaic.ValueIdx

/-- The largest entry of row `r` of a 40-column array, taken from −∞ upwards (the fold of `max` over the columns). -/
def rowMax (h : (⟨2, ![50000, 40]⟩ : Shape).Idx → EReal) (r : Fin 50000) : EReal :=
  (Finset.univ : Finset (Fin 40)).fold max (⊥ : EReal) (fun j => h (ix2 r j))

/-- Layer 1 before the edges: row `r` of `X` scaled by the node's factor `s r`, times `W`. -/
def scaledProduct (X : (⟨2, ![50000, 256]⟩ : Shape).Idx → EReal) (s : (⟨2, ![50000, 1]⟩ : Shape).Idx → EReal)
    (W : (⟨2, ![256, 128]⟩ : Shape).Idx → EReal) : (⟨2, ![50000, 128]⟩ : Shape).Idx → EReal :=
  fun i => ∑ k : Fin 256, (X (ix2 (i 0 : Fin 50000) k) * s (ix2 (i 0 : Fin 50000) (0 : Fin 1))) * W (ix2 k (i 1 : Fin 128))

/-- Layer 1 after the edges (scale by `p`, add the bias row `b`), then layer 2 before the edges (scale by `q`, times
    `W`). -/
def affineScaledProduct (A : (⟨2, ![50000, 128]⟩ : Shape).Idx → EReal) (p q : (⟨2, ![50000, 1]⟩ : Shape).Idx → EReal)
    (b : (⟨2, ![1, 128]⟩ : Shape).Idx → EReal) (W : (⟨2, ![128, 40]⟩ : Shape).Idx → EReal) :
    (⟨2, ![50000, 40]⟩ : Shape).Idx → EReal :=
  fun i => ∑ k : Fin 128,
    ((A (ix2 (i 0 : Fin 50000) k) * p (ix2 (i 0 : Fin 50000) (0 : Fin 1)) + b (ix2 (0 : Fin 1) k))
      * q (ix2 (i 0 : Fin 50000) (0 : Fin 1))) * W (ix2 k (i 1 : Fin 40))

/-- Layer 2 after the edges: the logits of node `r`. -/
def logits (A : (⟨2, ![50000, 40]⟩ : Shape).Idx → EReal) (p : (⟨2, ![50000, 1]⟩ : Shape).Idx → EReal)
    (b : (⟨2, ![1, 40]⟩ : Shape).Idx → EReal) : (⟨2, ![50000, 40]⟩ : Shape).Idx → EReal :=
  fun i => A (ix2 (i 0 : Fin 50000) (i 1 : Fin 40)) * p (ix2 (i 0 : Fin 50000) (0 : Fin 1)) + b (ix2 (0 : Fin 1) (i 1 : Fin 40))

/-- The logits shifted by their row's maximum. -/
def shifted (h : (⟨2, ![50000, 40]⟩ : Shape).Idx → EReal) : (⟨2, ![50000, 40]⟩ : Shape).Idx → EReal :=
  fun i => h (ix2 (i 0 : Fin 50000) (i 1 : Fin 40)) - rowMax h (i 0)

/-- Row-wise log-softmax of an array of logits, in the max-shifted form both programs use. -/
def logSoftmax (h : (⟨2, ![50000, 40]⟩ : Shape).Idx → EReal) : (⟨2, ![50000, 40]⟩ : Shape).Idx → EReal :=
  fun i => shifted h (ix2 (i 0 : Fin 50000) (i 1 : Fin 40))
    - Ideal.log (∑ j : Fin 40, Ideal.exp (shifted h (ix2 (i 0 : Fin 50000) j)))

/-- Layer 2 after the edges followed by the row-wise log-softmax. -/
def affineLogSoftmax (A : (⟨2, ![50000, 40]⟩ : Shape).Idx → EReal) (p : (⟨2, ![50000, 1]⟩ : Shape).Idx → EReal)
    (b : (⟨2, ![1, 40]⟩ : Shape).Idx → EReal) : (⟨2, ![50000, 40]⟩ : Shape).Idx → EReal :=
  logSoftmax (logits A p b)

end Cert.GraphLayers

end
-- ==== Proof.LibColumnRow.lean ====
/-
  One-column and one-row arrays, read at an index.

  A per-row quantity (one number per row of a matrix: a node's degree factor, a row's maximum, a row's sum) is
  held as a one-column array [a, 1] and used by laying it along every row of an [a, b] matrix; a per-column
  quantity (a bias) is held as a one-row array [1, n]. A vector of length a becomes such a column either by a
  reshape (the row-major position is kept, and position p of the column is entry p) or by a broadcast along
  axis 0; a vector of length n becomes a row by a reshape or by a broadcast along axis 1. The lemmas below read
  each of these at an index (p, c), and say that the reshape and the broadcast of a vector into a column, and into
  a row, are the same array.
-/
import Idealize.ShloMosaic.Lib.Pipeline.Value
import Idealize.ShloMosaic.Lib.ValueIdx
import Idealize.ShloMosaic.Lib.ValueLayout

namespace Cert.LibColumnRow

open Idealize.ShloMosaic Idealize.ShloMosaic.ValueIdx

variable {α : Type}

/-- A column [a, 1] laid along every row of an [a, b] array reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a reshaped into a column [a, 1] reads, at (p, u), the vector's entry p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector of length a broadcast along axis 0 into a column [a, 1] reads, at (p, u), the vector's entry p. -/
theorem broadcastInDim_a_a1_apply {a : ℕ} (hd : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] hd x (ix2 p u) = x (ix1 p) := by
  refine broadcastInDim_apply ![0] hd x (ix2 p u) (ix1 p) fun ax => ?_
  match ax with
  | ⟨0, _⟩ =>
    show p.val = if a = 1 then 0 else p.val
    split
    · have := p.isLt; omega
    · rfl

/-- The reshape of a vector into a column is its broadcast along axis 0 into that column. -/
theorem shapeCast_col_eq_broadcastInDim {a : ℕ} (x : (⟨1, ![a]⟩ : Shape).Idx → α)
    (h : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h = broadcastInDim ⟨2, ![a, 1]⟩ ![0] hd x := by
  funext i
  obtain ⟨p, u, rfl⟩ : ∃ (p : Fin a) (u : Fin 1), i = ix2 p u := ⟨i 0, i 1, eq_ix2 i⟩
  rw [shapeCast_a_a1_apply, broadcastInDim_a_a1_apply]

/-- A vector of length n broadcast along axis 1 into a row [1, n] reads, at (u, c), the vector's entry c. -/
theorem broadcastInDim_n_1n_apply {n : ℕ} (hd : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] hd x (ix2 u c) = x (ix1 c) := by
  refine broadcastInDim_apply ![1] hd x (ix2 u c) (ix1 c) fun ax => ?_
  match ax with
  | ⟨0, _⟩ =>
    show c.val = if n = 1 then 0 else c.val
    split
    · have := c.isLt; omega
    · rfl

/-- The reshape of a vector into a row is its broadcast along axis 1 into that row. -/
theorem shapeCast_row_eq_broadcastInDim {n : ℕ} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, c, rfl⟩ : ∃ (u : Fin 1) (c : Fin n), i = ix2 u c := ⟨i 0, i 1, eq_ix2 i⟩
  rw [shapeCast_a_1a_apply, broadcastInDim_n_1n_apply]

end Cert.LibColumnRow
-- ==== Proof.Dense1Kernel.lean ====
/-
  The first kernel region: the row-scaled matrix product, block by block.

  The region walks the 50000 rows in 10 blocks of 5000. At block t it holds rows 5000·t … 5000·t + 4999 of X
  (all 256 columns), the same rows of the one-column array of per-node factors, and the whole of W; it multiplies
  each row of the block by its factor and forms the product with W from a zero accumulator. An entry (p, c) of
  the block's result is therefore  Σ_k (X[5000·t + p, k] · s[5000·t + p]) · W[k, c]  — the entry (5000·t + p, c)
  of `GraphLayers.scaledProduct X s W`: each block written back is the restriction of that one whole-array function
  to the block's rows, and the 10 blocks cover every row, so the output array ends equal to it.
-/
import proofs.«110680_j63376537420316_1_alg».proof.Proof.Gen.KernelIdeal.Frame
import proofs.«110680_j63376537420316_1_alg».proof.Proof.GraphLayers
import proofs.«110680_j63376537420316_1_alg».proof.Proof.LibColumnRow
import Idealize.ShloMosaic.Lib.Pipeline.Value
import Idealize.ShloMosaic.Lib.ValueIdx
import Idealize.ShloMosaic.PureOps.Ideal.Laws

set_option maxRecDepth 16384

noncomputable section

namespace Cert.KernelIdeal.Dense1

open Cert.KernelIdeal Cert.KernelIdeal.Gen Idealize.ShloMosaic Idealize.ShloMosaic.TcCoe Idealize.SL.Sem
open Idealize.ShloMosaic.ValueIdx Cert.GraphLayers Cert.LibColumnRow
open Idealize.ShloMosaic.Pipeline (Dat)

/-! ## The block product at an index -/

/-- The product's left operand index at output (r, c) and contraction index q is (r, q). -/
theorem lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- The right operand index is (q, c). -/
theorem rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry (p, c) of a block's result: the sum over k of (x0[p,k] · x1[p]) · x2[k,c]. The change of float format
    before the product is the identity on the extended reals, and the product starts from a zero accumulator. -/
theorem block_product (x0 : FVec Ideal S5000x256 .f32) (x1 : FVec Ideal S5000x1 .f32) (x2 : FVec Ideal S256x128 .f32)
    (p : Fin 5000) (c : Fin 128) :
    k0_pay1 (F := Ideal) x0 x1 x2 (ix2 p c) = ∑ k : Fin 256, (x0 (ix2 p k) * x1 (ix2 p (0 : Fin 1))) * x2 (ix2 k c) := by
  unfold k0_pay1
  refine (Ideal.matmul_constant_zero_apply dot_S5000x256_S256x128_S5000x128_1_0_0_1_n_n none _ _ (ix2 p c)).trans ?_
  refine (Equiv.sum_comp (contrEquiv1 dot_S5000x256_S256x128_S5000x128_1_0_0_1_n_n 256 rfl rfl).symm _).symm.trans ?_
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p c) ((contrEquiv1 dot_S5000x256_S256x128_S5000x128_1_0_0_1_n_n 256 rfl rfl).symm k) = ix2 p k := funext fun a => Fin.ext (by
    match a with
    | ⟨0, _⟩ => exact lhs_0 _ _
    | ⟨1, _⟩ => exact (lhs_1 _ _).trans hk)
  have er : dot_S5000x256_S256x128_S5000x128_1_0_0_1_n_n.rhsIdx (ix2 p c) ((contrEquiv1 dot_S5000x256_S256x128_S5000x128_1_0_0_1_n_n 256 rfl rfl).symm k) = ix2 k c := funext fun a => Fin.ext (by
    match a with
    | ⟨0, _⟩ => exact (rhs_0 _ _).trans hk
    | ⟨1, _⟩ => exact rhs_1 _ _)
  rw [el, er]
  show (x0 (ix2 p k) * broadcastTo S5000x256 (shapeCast S5000x1 x1 shapeCasts_S5000x1_S5000x1) broadcasts_S5000x1_S5000x256 (ix2 p k)) * x2 (ix2 k c) = _
  rw [broadcastTo_a1_ab_apply, shapeCast_self]

/-- The same at any index of the block. -/
theorem block_product_at (x0 : FVec Ideal S5000x256 .f32) (x1 : FVec Ideal S5000x1 .f32) (x2 : FVec Ideal S256x128 .f32)
    (j : S5000x128.Idx) :
    k0_pay1 (F := Ideal) x0 x1 x2 j
      = ∑ k : Fin 256, (x0 (ix2 (j 0 : Fin 5000) k) * x1 (ix2 (j 0 : Fin 5000) (0 : Fin 1))) * x2 (ix2 k (j 1 : Fin 128)) := by
  obtain ⟨p, c, rfl⟩ : ∃ (p : Fin 5000) (c : Fin 128), j = ix2 p c := ⟨j 0, j 1, eq_ix2 j⟩
  exact block_product x0 x1 x2 p c

/-! ## From the blocks to the array -/

-- the TensorCore's buffer contents when the region is entered
variable (V : (c : Dev nD) → (b : Ref sig .tc) → Buf (Elt Ideal) ((c : Thread nD τ).loc b))

theorem zero_origin : (![0, 0] : Fin 2 → Nat) = fun _ => 0 := funext fun a => by fin_cases a <;> rfl

/-- The block index maps over the 10 grid points: the block of X and the block of factors move down the rows with the
    output block, W stays, and no block moves along the columns. -/
theorem index_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every one of the 10 row blocks is some grid point's. -/
theorem index_onto : ∀ q : Fin 10, ∃ t : Fin cfg0.N, win0_3.index t = ![q.val, 0] :=
  (by decide +kernel : ∀ q : Fin 10, ∃ t : Fin grid0.N, win0_3.index t = ![q.val, 0])

/-- What grid point t writes back is block t of the row-scaled product of the arrays as the region finds them. -/
theorem flushed_eq (c : Dev nD) (t : Fin cfg0.N) :
    (dat0 V c).flushed 3 t
      = ((cfg0.win 3).blk t).view.read (Elt Ideal) (scaledProduct (V c main_arg0) (V c main_v19) (V c main_arg3)) := by
  show (cfg0.win 3).cut (grid0.coords t) ((dat0 V c).after 3 t) = _
  rw [after0_3]
  unfold out0_3
  rw [View.canon_unit_zero zero_origin]
  simp only [View.ld_unit_zero (S := S5000x256) zero_origin, View.ld_unit_zero (S := S5000x1) zero_origin,
    View.ld_unit_zero (S := S256x128) zero_origin]
  obtain ⟨e0, e1, e2, e3, e4, e5, e6, e7⟩ := index_facts t
  funext j
  show k0_pay1 (F := Ideal) (iblk0 V c 0 t) (iblk0 V c 1 t) (iblk0 V c 2 t) j
    = scaledProduct (V c main_arg0) (V c main_v19) (V c main_arg3) (((cfg0.win 3).blk t).view.emb j)
  refine (block_product_at _ _ _ j).trans ?_
  unfold scaledProduct
  refine Finset.sum_congr rfl fun k _ => ?_
  have h0 : iblk0 V c 0 t (ix2 (j 0 : Fin 5000) k)
      = V c main_arg0 (ix2 ((((cfg0.win 3).blk t).view.emb j) 0 : Fin 50000) k) := by
    show V c main_arg0 (((cfg0.win 0).blk t).view.emb (ix2 (j 0 : Fin 5000) k)) = _
    refine congrArg (V c main_arg0) (funext fun a => Fin.ext ?_)
    match a with
    | ⟨0, _⟩ =>
      show win0_0.index t (0 : Fin 2) * 5000 + 1 * (j 0).val = win0_3.index t (0 : Fin 2) * 5000 + 1 * (j 0).val
      omega
    | ⟨1, _⟩ =>
      show win0_0.index t (1 : Fin 2) * 256 + 1 * k.val = k.val
      omega
  have h1 : iblk0 V c 1 t (ix2 (j 0 : Fin 5000) (0 : Fin 1))
      = V c main_v19 (ix2 ((((cfg0.win 3).blk t).view.emb j) 0 : Fin 50000) (0 : Fin 1)) := by
    show V c main_v19 (((cfg0.win 1).blk t).view.emb (ix2 (j 0 : Fin 5000) (0 : Fin 1))) = _
    refine congrArg (V c main_v19) (funext fun a => Fin.ext ?_)
    match a with
    | ⟨0, _⟩ =>
      show win0_1.index t (0 : Fin 2) * 5000 + 1 * (j 0).val = win0_3.index t (0 : Fin 2) * 5000 + 1 * (j 0).val
      omega
    | ⟨1, _⟩ =>
      show win0_1.index t (1 : Fin 2) * 1 + 1 * 0 = 0
      omega
  have h2 : iblk0 V c 2 t (ix2 k (j 1 : Fin 128))
      = V c main_arg3 (ix2 k ((((cfg0.win 3).blk t).view.emb j) 1 : Fin 128)) := by
    show V c main_arg3 (((cfg0.win 2).blk t).view.emb (ix2 k (j 1 : Fin 128))) = _
    refine congrArg (V c main_arg3) (funext fun a => Fin.ext ?_)
    match a with
    | ⟨0, _⟩ =>
      show win0_2.index t (0 : Fin 2) * 256 + 1 * k.val = k.val
      omega
    | ⟨1, _⟩ =>
      show win0_2.index t (1 : Fin 2) * 128 + 1 * (j 1).val = win0_3.index t (1 : Fin 2) * 128 + 1 * (j 1).val
      omega
  rw [h0, h1, h2]

/-- An index of the output array is in grid point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v23).slice (win0_3.rect t)).set ↔ _
  rw [View.set_slice_whole, Rect.mem_set_unit]
  exact Iff.rfl

/-- Every row of the output is in some grid point's block: row r is in block r / 5000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The region's output array after its 10 grid points: the row-scaled product of the arrays as the region finds them. -/
theorem final (c : Dev nD) :
    (dat0 V c).arrAt 3 cfg0.N = scaledProduct (V c main_arg0) (V c main_v19) (V c main_arg3) :=
  (dat0 V c).arrAt_eq_of_cover 3 _ (fun t _ => flushed_eq V c t) covered

end Cert.KernelIdeal.Dense1

end
-- ==== Proof.Dense2Kernel.lean ====
/-
  The second kernel region: the fused step between the two edge steps, block by block.

  The region walks the 50000 rows in 10 blocks of 5000. At block t it holds rows 5000·t … 5000·t + 4999 of the
  128-column array A that the first edge step left, the same rows of the two one-column arrays of per-node factors
  (p for the destinations' degrees, q for the sources'), the bias row b and the whole of W. It finishes the first
  layer on each row — scale by p, add b — starts the second — scale by q — and forms the product with W from a zero
  accumulator. Entry (r, c) of the block's result is  Σ_k ((A[r,k] · p[r] + b[k]) · q[r]) · W[k,c]  at the block's
  rows: the restriction of `GraphLayers.affineScaledProduct A p q b W` to them; the 10 blocks cover every row.
-/
import proofs.«110680_j63376537420316_1_alg».proof.Proof.Gen.KernelIdeal.Frame
import proofs.«110680_j63376537420316_1_alg».proof.Proof.GraphLayers
import proofs.«110680_j63376537420316_1_alg».proof.Proof.LibColumnRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense2

open Cert.KernelIdeal Cert.KernelIdeal.Gen Idealize.ShloMosaic Idealize.ShloMosaic.TcCoe Idealize.SL.Sem
open Idealize.ShloMosaic.ValueIdx Cert.GraphLayers Cert.LibColumnRow
open Idealize.ShloMosaic.Pipeline (Dat)

/-! ## The block's result at an index -/

/-- The product's left operand index at output (r, c) and contraction index q is (r, q). -/
theorem lhs_0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhs_1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
/-- The right operand index is (q, c). -/
theorem rhs_0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
theorem rhs_1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- Entry (p, c) of a block's result: the sum over k of ((a[p,k] · u[p] + b[k]) · v[p]) · w[k,c]. -/
theorem block_affine_product (a : FVec Ideal S5000x128 .f32) (u : FVec Ideal S5000x1 .f32) (b : FVec Ideal S1x128 .f32)
    (v : FVec Ideal S5000x1 .f32) (w : FVec Ideal S128x40 .f32) (p : Fin 5000) (c : Fin 40) :
    k1_pay1 (F := Ideal) a u b v w (ix2 p c)
      = ∑ k : Fin 128, ((a (ix2 p k) * u (ix2 p (0 : Fin 1)) + b (ix2 (0 : Fin 1) k)) * v (ix2 p (0 : Fin 1))) * w (ix2 k c) := by
  unfold k1_pay1
  refine (Ideal.matmul_constant_zero_apply dot_S5000x128_S128x40_S5000x40_1_0_0_1_n_n none _ _ (ix2 p c)).trans ?_
  refine (Equiv.sum_comp (contrEquiv1 dot_S5000x128_S128x40_S5000x40_1_0_0_1_n_n 128 rfl rfl).symm _).symm.trans ?_
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p c) ((contrEquiv1 dot_S5000x128_S128x40_S5000x40_1_0_0_1_n_n 128 rfl rfl).symm k) = ix2 p k := funext fun x => Fin.ext (by
    match x with
    | ⟨0, _⟩ => exact lhs_0 _ _
    | ⟨1, _⟩ => exact (lhs_1 _ _).trans hk)
  have er : dot_S5000x128_S128x40_S5000x40_1_0_0_1_n_n.rhsIdx (ix2 p c) ((contrEquiv1 dot_S5000x128_S128x40_S5000x40_1_0_0_1_n_n 128 rfl rfl).symm k) = ix2 k c := funext fun x => Fin.ext (by
    match x with
    | ⟨0, _⟩ => exact (rhs_0 _ _).trans hk
    | ⟨1, _⟩ => exact rhs_1 _ _)
  rw [el, er]
  show ((shapeCast S5000x128 a shapeCasts_S5000x128_S5000x128 (ix2 p k)
        * broadcastTo S5000x128 (shapeCast S5000x1 u shapeCasts_S5000x1_S5000x1) broadcasts_S5000x1_S5000x128 (ix2 p k)
      + broadcastTo S5000x128 (shapeCast S1x128 b shapeCasts_S1x128_S1x128) broadcasts_S1x128_S5000x128 (ix2 p k))
      * broadcastTo S5000x128 (shapeCast S5000x1 v shapeCasts_S5000x1_S5000x1) broadcasts_S5000x1_S5000x128 (ix2 p k))
    * w (ix2 k c) = _
  rw [broadcastTo_a1_ab_apply, broadcastTo_a1_ab_apply, broadcastTo_1b_ab_apply, shapeCast_self, shapeCast_self,
    shapeCast_self, shapeCast_self]

/-- The same at any index of the block. -/
theorem block_affine_product_at (a : FVec Ideal S5000x128 .f32) (u : FVec Ideal S5000x1 .f32) (b : FVec Ideal S1x128 .f32)
    (v : FVec Ideal S5000x1 .f32) (w : FVec Ideal S128x40 .f32) (j : S5000x40.Idx) :
    k1_pay1 (F := Ideal) a u b v w j
      = ∑ k : Fin 128, ((a (ix2 (j 0 : Fin 5000) k) * u (ix2 (j 0 : Fin 5000) (0 : Fin 1)) + b (ix2 (0 : Fin 1) k))
          * v (ix2 (j 0 : Fin 5000) (0 : Fin 1))) * w (ix2 k (j 1 : Fin 40)) := by
  obtain ⟨p, c, rfl⟩ : ∃ (p : Fin 5000) (c : Fin 40), j = ix2 p c := ⟨j 0, j 1, eq_ix2 j⟩
  exact block_affine_product a u b v w p c

/-! ## From the blocks to the array -/

-- the TensorCore's buffer contents when the region is entered
variable (V : (c : Dev nD) → (b : Ref sig .tc) → Buf (Elt Ideal) ((c : Thread nD τ).loc b))

theorem zero_origin : (![0, 0] : Fin 2 → Nat) = fun _ => 0 := funext fun a => by fin_cases a <;> rfl

/-- The block index maps over the 10 grid points: the blocks of A and of the two factor columns move down the rows with
    the output block; the bias row and W stay; no block moves along the columns. -/
theorem index_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every one of the 10 row blocks is some grid point's. -/
theorem index_onto : ∀ q : Fin 10, ∃ t : Fin cfg1.N, win1_5.index t = ![q.val, 0] :=
  (by decide +kernel : ∀ q : Fin 10, ∃ t : Fin grid1.N, win1_5.index t = ![q.val, 0])

/-- What grid point t writes back is block t of the fused step of the arrays as the region finds them. -/
theorem flushed_eq (c : Dev nD) (t : Fin cfg1.N) :
    (dat1 V c).flushed 5 t
      = ((cfg1.win 5).blk t).view.read (Elt Ideal)
          (affineScaledProduct (V c main_v33) (V c main_v20) (V c main_v19) (V c main_v21) (V c main_arg5)) := by
  show (cfg1.win 5).cut (grid1.coords t) ((dat1 V c).after 5 t) = _
  rw [after1_5]
  unfold out1_5
  rw [View.canon_unit_zero zero_origin]
  simp only [View.ld_unit_zero (S := S5000x128) zero_origin, View.ld_unit_zero (S := S5000x1) zero_origin,
    View.ld_unit_zero (S := S1x128) zero_origin, View.ld_unit_zero (S := S128x40) zero_origin]
  obtain ⟨e0, e1, e2, e3, e4, e5, e6, e7, e8, e9, e10, e11⟩ := index_facts t
  funext j
  show k1_pay1 (F := Ideal) (iblk1 V c 0 t) (iblk1 V c 1 t) (iblk1 V c 3 t) (iblk1 V c 2 t) (iblk1 V c 4 t) j
    = affineScaledProduct (V c main_v33) (V c main_v20) (V c main_v19) (V c main_v21) (V c main_arg5)
        (((cfg1.win 5).blk t).view.emb j)
  refine (block_affine_product_at _ _ _ _ _ j).trans ?_
  unfold affineScaledProduct
  refine Finset.sum_congr rfl fun k _ => ?_
  have h0 : iblk1 V c 0 t (ix2 (j 0 : Fin 5000) k)
      = V c main_v33 (ix2 ((((cfg1.win 5).blk t).view.emb j) 0 : Fin 50000) k) := by
    show V c main_v33 (((cfg1.win 0).blk t).view.emb (ix2 (j 0 : Fin 5000) k)) = _
    refine congrArg (V c main_v33) (funext fun x => Fin.ext ?_)
    match x with
    | ⟨0, _⟩ =>
      show win1_0.index t (0 : Fin 2) * 5000 + 1 * (j 0).val = win1_5.index t (0 : Fin 2) * 5000 + 1 * (j 0).val
      omega
    | ⟨1, _⟩ =>
      show win1_0.index t (1 : Fin 2) * 128 + 1 * k.val = k.val
      omega
  have h1 : iblk1 V c 1 t (ix2 (j 0 : Fin 5000) (0 : Fin 1))
      = V c main_v20 (ix2 ((((cfg1.win 5).blk t).view.emb j) 0 : Fin 50000) (0 : Fin 1)) := by
    show V c main_v20 (((cfg1.win 1).blk t).view.emb (ix2 (j 0 : Fin 5000) (0 : Fin 1))) = _
    refine congrArg (V c main_v20) (funext fun x => Fin.ext ?_)
    match x with
    | ⟨0, _⟩ =>
      show win1_1.index t (0 : Fin 2) * 5000 + 1 * (j 0).val = win1_5.index t (0 : Fin 2) * 5000 + 1 * (j 0).val
      omega
    | ⟨1, _⟩ =>
      show win1_1.index t (1 : Fin 2) * 1 + 1 * 0 = 0
      omega
  have h2 : iblk1 V c 2 t (ix2 (j 0 : Fin 5000) (0 : Fin 1))
      = V c main_v19 (ix2 ((((cfg1.win 5).blk t).view.emb j) 0 : Fin 50000) (0 : Fin 1)) := by
    show V c main_v19 (((cfg1.win 2).blk t).view.emb (ix2 (j 0 : Fin 5000) (0 : Fin 1))) = _
    refine congrArg (V c main_v19) (funext fun x => Fin.ext ?_)
    match x with
    | ⟨0, _⟩ =>
      show win1_2.index t (0 : Fin 2) * 5000 + 1 * (j 0).val = win1_5.index t (0 : Fin 2) * 5000 + 1 * (j 0).val
      omega
    | ⟨1, _⟩ =>
      show win1_2.index t (1 : Fin 2) * 1 + 1 * 0 = 0
      omega
  have h3 : iblk1 V c 3 t (ix2 (0 : Fin 1) k) = V c main_v21 (ix2 (0 : Fin 1) k) := by
    show V c main_v21 (((cfg1.win 3).blk t).view.emb (ix2 (0 : Fin 1) k)) = _
    refine congrArg (V c main_v21) (funext fun x => Fin.ext ?_)
    match x with
    | ⟨0, _⟩ =>
      show win1_3.index t (0 : Fin 2) * 1 + 1 * 0 = 0
      omega
    | ⟨1, _⟩ =>
      show win1_3.index t (1 : Fin 2) * 128 + 1 * k.val = k.val
      omega
  have h4 : iblk1 V c 4 t (ix2 k (j 1 : Fin 40))
      = V c main_arg5 (ix2 k ((((cfg1.win 5).blk t).view.emb j) 1 : Fin 40)) := by
    show V c main_arg5 (((cfg1.win 4).blk t).view.emb (ix2 k (j 1 : Fin 40))) = _
    refine congrArg (V c main_arg5) (funext fun x => Fin.ext ?_)
    match x with
    | ⟨0, _⟩ =>
      show win1_4.index t (0 : Fin 2) * 128 + 1 * k.val = k.val
      omega
    | ⟨1, _⟩ =>
      show win1_4.index t (1 : Fin 2) * 40 + 1 * (j 1).val = win1_5.index t (1 : Fin 2) * 40 + 1 * (j 1).val
      omega
  rw [h0, h1, h2, h3, h4]

/-- An index of the output array is in grid point t's block iff each coordinate is in the block's range on its axis. -/
theorem mem_blk (t : Fin cfg1.N) (i : S50000x40.Idx) :
    i ∈ ((cfg1.win 5).blk t).view.set ↔ ∀ a : Fin 2, win1_5.index t a * S5000x40.size a ≤ (i a).val
      ∧ (i a).val < win1_5.index t a * S5000x40.size a + S5000x40.size a := by
  show i ∈ ((View.whole main_v34).slice (win1_5.rect t)).set ↔ _
  rw [View.set_slice_whole, Rect.mem_set_unit]
  exact Iff.rfl

/-- Every row of the output is in some grid point's block: row r is in block r / 5000. -/
theorem covered (i : S50000x40.Idx) :
    ∃ t : Fin cfg1.N, (cfg1.win 5).flush t = true ∧ i ∈ ((cfg1.win 5).blk t).view.set := by
  have hi0 : (i 0).val < 50000 := (i 0).isLt
  have hi1 : (i 1).val < 40 := (i 1).isLt
  obtain ⟨t, ht⟩ := index_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 40 ≤ (i 1).val ∧ (i 1).val < win1_5.index t (1 : Fin 2) * 40 + 40
    omega

/-- The region's output array after its 10 grid points: the fused step of the arrays as the region finds them. -/
theorem final (c : Dev nD) :
    (dat1 V c).arrAt 5 cfg1.N
      = affineScaledProduct (V c main_v33) (V c main_v20) (V c main_v19) (V c main_v21) (V c main_arg5) :=
  (dat1 V c).arrAt_eq_of_cover 5 _ (fun t _ => flushed_eq V c t) covered

end Cert.KernelIdeal.Dense2

end
-- ==== Proof.Dense3Kernel.lean ====
/-
  The third kernel region: the last affine step and the row-wise log-softmax, block by block.

  The region walks the 50000 rows in 10 blocks of 5000. At block t it holds rows 5000·t … 5000·t + 4999 of the
  40-column array A that the second edge step left, the same rows of the one-column array p of per-node factors, and
  the bias row b. On each row it forms the logits h[j] = A[r,j] · p[r] + b[j], takes their maximum from −∞ upwards,
  subtracts it, and subtracts the logarithm of the sum of the exponentials of the shifted logits. Entry (r, c) of the
  block's result is `GraphLayers.affineLogSoftmax A p b` at the block's rows; the 10 blocks cover every row.
-/
import proofs.«110680_j63376537420316_1_alg».proof.Proof.Gen.KernelIdeal.Frame
import proofs.«110680_j63376537420316_1_alg».proof.Proof.GraphLayers
import proofs.«110680_j63376537420316_1_alg».proof.Proof.LibColumnRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense3

open Cert.KernelIdeal Cert.KernelIdeal.Gen Idealize.ShloMosaic Idealize.ShloMosaic.TcCoe Idealize.SL.Sem
open Idealize.ShloMosaic.ValueIdx Cert.GraphLayers Cert.LibColumnRow
open Idealize.ShloMosaic.Pipeline (Dat)

/-! ## The two row reductions of a [5000, 40] block -/

/-- The pattern of −∞ denotes the bottom of the extended reals. -/
theorem neg_infinity : Ideal.ofBits .f32 0xFF800000#32 = (⊥ : EReal) := by simp [Ideal.ofBits, Ideal.ieee]

/-- Inserting column j into the row index p gives (p, j). -/
theorem lift_row (p : Fin 5000) (j : Fin 40) :
    reduces_S5000x40_S5000.lift (ix1 p) j = (ix2 p j : S5000x40.Idx) :=
  funext fun a => Fin.ext (by match a with | ⟨0, _⟩ => rfl | ⟨1, _⟩ => rfl)

/-- A row's sum: the reduction over the columns from a zero accumulator, read at row p. -/
theorem row_sum (src : FVec Ideal S5000x40 .f32) (p : Fin 5000) :
    multiReduction .add [1] S5000 src 0x00000000#32 reduces_S5000x40_S5000 (.inl rfl) rfl (ix1 p)
      = ∑ j : Fin 40, src (ix2 p j) :=
  (Ideal.multiReduction_add_single src 0x00000000#32 reduces_S5000x40_S5000 (.inl rfl) rfl (ix1 p)).trans
    (Finset.sum_congr rfl fun j _ => congrArg src (lift_row p j))

/-- A row's maximum: the reduction over the columns from an accumulator at −∞, read at row p, is the fold of max
    from the bottom element over the row. -/
theorem row_max (src : FVec Ideal S5000x40 .f32) (p : Fin 5000) :
    multiReduction .maximumf [1] S5000 src 0xFF800000#32 reduces_S5000x40_S5000 (.inl rfl) rfl (ix1 p)
      = (Finset.univ : Finset (Fin 40)).fold max (⊥ : EReal) (fun j => src (ix2 p j)) := by
  refine (Ideal.multiReduction_maximumf_single src 0xFF800000#32 reduces_S5000x40_S5000 (.inl rfl) rfl (ix1 p)).trans ?_
  have hf : (src ∘ reduces_S5000x40_S5000.lift (ix1 p)) = fun j : Fin 40 => src (ix2 p j) :=
    funext fun j => congrArg src (lift_row p j)
  rw [hf]
  show (Finset.univ : Finset (Fin 40)).fold max (Ideal.ofBits .f32 0xFF800000#32) _ = _
  rw [neg_infinity]

/-! ## The block's result at an index -/

/-- The logits of row p of a block. -/
def blockLogit (a : FVec Ideal S5000x40 .f32) (u : FVec Ideal S5000x1 .f32) (b : FVec Ideal S1x40 .f32) (p : Fin 5000)
    (j : Fin 40) : EReal :=
  a (ix2 p j) * u (ix2 p (0 : Fin 1)) + b (ix2 (0 : Fin 1) j)

/-- The block's affine step at (p, j). -/
theorem affine_apply (a : FVec Ideal S5000x40 .f32) (u : FVec Ideal S5000x1 .f32) (b : FVec Ideal S1x40 .f32)
    (p : Fin 5000) (j : Fin 40) :
    addf (mulf (shapeCast S5000x40 a shapeCasts_S5000x40_S5000x40)
        (broadcastTo S5000x40 (shapeCast S5000x1 u shapeCasts_S5000x1_S5000x1) broadcasts_S5000x1_S5000x40))
      (broadcastTo S5000x40 (shapeCast S1x40 b shapeCasts_S1x40_S1x40) broadcasts_S1x40_S5000x40) (ix2 p j)
      = blockLogit a u b p j := by
  show shapeCast S5000x40 a shapeCasts_S5000x40_S5000x40 (ix2 p j)
      * broadcastTo S5000x40 (shapeCast S5000x1 u shapeCasts_S5000x1_S5000x1) broadcasts_S5000x1_S5000x40 (ix2 p j)
    + broadcastTo S5000x40 (shapeCast S1x40 b shapeCasts_S1x40_S1x40) broadcasts_S1x40_S5000x40 (ix2 p j) = _
  rw [broadcastTo_a1_ab_apply, broadcastTo_1b_ab_apply, shapeCast_self, shapeCast_self, shapeCast_self]
  rfl

/-- Entry (p, c) of a block's result: the shifted logit minus the logarithm of the row's sum of exponentials of the
    shifted logits, the shift the row's maximum from −∞. -/
theorem block_log_softmax (a : FVec Ideal S5000x40 .f32) (u : FVec Ideal S5000x1 .f32) (b : FVec Ideal S1x40 .f32)
    (p : Fin 5000) (c : Fin 40) :
    k2_pay1 (F := Ideal) a u b (ix2 p c)
      = (blockLogit a u b p c - (Finset.univ : Finset (Fin 40)).fold max (⊥ : EReal) (blockLogit a u b p))
        - Ideal.log (∑ j : Fin 40, Ideal.exp
            (blockLogit a u b p j - (Finset.univ : Finset (Fin 40)).fold max (⊥ : EReal) (blockLogit a u b p))) := by
  unfold k2_pay1
  -- the logits, as one vector
  generalize hh : addf (mulf (shapeCast S5000x40 a shapeCasts_S5000x40_S5000x40)
        (broadcastTo S5000x40 (shapeCast S5000x1 u shapeCasts_S5000x1_S5000x1) broadcasts_S5000x1_S5000x40))
      (broadcastTo S5000x40 (shapeCast S1x40 b shapeCasts_S1x40_S1x40) broadcasts_S1x40_S5000x40) = h
  have hv : ∀ j : Fin 40, h (ix2 p j) = blockLogit a u b p j := fun j => by rw [← hh]; exact affine_apply a u b p j
  -- the row's maximum, laid along the row
  have hm : ∀ j : Fin 40,
      broadcastTo S5000x40 (shapeCast S5000x1
        (multiReduction .maximumf [1] S5000 h 0xFF800000#32 reduces_S5000x40_S5000 (.inl rfl) rfl) shapeCasts_S5000_S5000x1)
        broadcasts_S5000x1_S5000x40 (ix2 p j)
      = (Finset.univ : Finset (Fin 40)).fold max (⊥ : EReal) (blockLogit a u b p) := fun j => by
    rw [broadcastTo_a1_ab_apply, shapeCast_a_a1_apply, row_max]
    exact congrArg (fun g : Fin 40 → EReal => (Finset.univ : Finset (Fin 40)).fold max (⊥ : EReal) g) (funext hv)
  -- the shifted logits
  generalize hz : subf h (broadcastTo S5000x40 (shapeCast S5000x1
        (multiReduction .maximumf [1] S5000 h 0xFF800000#32 reduces_S5000x40_S5000 (.inl rfl) rfl) shapeCasts_S5000_S5000x1)
        broadcasts_S5000x1_S5000x40) = z
  have hzv : ∀ j : Fin 40, z (ix2 p j)
      = blockLogit a u b p j - (Finset.univ : Finset (Fin 40)).fold max (⊥ : EReal) (blockLogit a u b p) := fun j => by
    rw [← hz]
    show h (ix2 p j) - _ = _
    rw [hv j, hm j]
  show z (ix2 p c) - broadcastTo S5000x40 (log (shapeCast S5000x1
      (multiReduction .add [1] S5000 (exp z) 0x00000000#32 reduces_S5000x40_S5000 (.inl rfl) rfl) shapeCasts_S5000_S5000x1))
      broadcasts_S5000x1_S5000x40 (ix2 p c) = _
  rw [broadcastTo_a1_ab_apply]
  show z (ix2 p c) - Ideal.log (shapeCast S5000x1
      (multiReduction .add [1] S5000 (exp z) 0x00000000#32 reduces_S5000x40_S5000 (.inl rfl) rfl) shapeCasts_S5000_S5000x1
      (ix2 p (0 : Fin 1))) = _
  rw [shapeCast_a_a1_apply, row_sum, hzv c]
  refine congrArg (fun s => _ - Ideal.log s) (Finset.sum_congr rfl fun j _ => ?_)
  show Ideal.exp (z (ix2 p j)) = _
  rw [hzv j]

/-- The same at any index of the block. -/
theorem block_log_softmax_at (a : FVec Ideal S5000x40 .f32) (u : FVec Ideal S5000x1 .f32) (b : FVec Ideal S1x40 .f32)
    (j : S5000x40.Idx) :
    k2_pay1 (F := Ideal) a u b j
      = (blockLogit a u b (j 0 : Fin 5000) (j 1 : Fin 40)
          - (Finset.univ : Finset (Fin 40)).fold max (⊥ : EReal) (blockLogit a u b (j 0 : Fin 5000)))
        - Ideal.log (∑ jj : Fin 40, Ideal.exp (blockLogit a u b (j 0 : Fin 5000) jj
            - (Finset.univ : Finset (Fin 40)).fold max (⊥ : EReal) (blockLogit a u b (j 0 : Fin 5000)))) := by
  obtain ⟨p, c, rfl⟩ : ∃ (p : Fin 5000) (c : Fin 40), j = ix2 p c := ⟨j 0, j 1, eq_ix2 j⟩
  exact block_log_softmax a u b p c

/-- The logits at (r, j). -/
theorem logits_apply (A : (⟨2, ![50000, 40]⟩ : Shape).Idx → EReal) (p : (⟨2, ![50000, 1]⟩ : Shape).Idx → EReal)
    (b : (⟨2, ![1, 40]⟩ : Shape).Idx → EReal) (r : Fin 50000) (j : Fin 40) :
    logits A p b (ix2 r j) = A (ix2 r j) * p (ix2 r (0 : Fin 1)) + b (ix2 (0 : Fin 1) j) := rfl

/-- The log-softmax of an array of logits at (r, c) is a function of row r of the logits alone. -/
theorem logSoftmax_of_row (h : (⟨2, ![50000, 40]⟩ : Shape).Idx → EReal) (r : Fin 50000) (c : Fin 40) (g : Fin 40 → EReal)
    (hg : ∀ j : Fin 40, h (ix2 r j) = g j) :
    logSoftmax h (ix2 r c)
      = (g c - (Finset.univ : Finset (Fin 40)).fold max (⊥ : EReal) g)
        - Ideal.log (∑ j : Fin 40, Ideal.exp (g j - (Finset.univ : Finset (Fin 40)).fold max (⊥ : EReal) g)) := by
  have hmax : rowMax h r = (Finset.univ : Finset (Fin 40)).fold max (⊥ : EReal) g := by
    unfold rowMax
    exact congrArg (fun g' : Fin 40 → EReal => (Finset.univ : Finset (Fin 40)).fold max (⊥ : EReal) g') (funext hg)
  have hs : ∀ j : Fin 40, shifted h (ix2 r j) = g j - (Finset.univ : Finset (Fin 40)).fold max (⊥ : EReal) g := fun j => by
    show h (ix2 r j) - rowMax h r = _
    rw [hg j, hmax]
  show shifted h (ix2 r c) - Ideal.log (∑ j : Fin 40, Ideal.exp (shifted h (ix2 r j))) = _
  rw [hs c]
  exact congrArg (fun s => _ - Ideal.log s) (Finset.sum_congr rfl fun j _ => by rw [hs j])

/-! ## From the blocks to the array -/

-- the TensorCore's buffer contents when the region is entered
variable (V : (c : Dev nD) → (b : Ref sig .tc) → Buf (Elt Ideal) ((c : Thread nD τ).loc b))

theorem zero_origin : (![0, 0] : Fin 2 → Nat) = fun _ => 0 := funext fun a => by fin_cases a <;> rfl

/-- The block index maps over the 10 grid points: the blocks of A and of the factor column move down the rows with the
    output block; the bias row stays; no block moves along the columns. -/
theorem index_facts : ∀ t : Fin cfg2.N,
    win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every one of the 10 row blocks is some grid point's. -/
theorem index_onto : ∀ q : Fin 10, ∃ t : Fin cfg2.N, win2_3.index t = ![q.val, 0] :=
  (by decide +kernel : ∀ q : Fin 10, ∃ t : Fin grid2.N, win2_3.index t = ![q.val, 0])

/-- What grid point t writes back is block t of the affine step and log-softmax of the arrays as the region finds them. -/
theorem flushed_eq (c : Dev nD) (t : Fin cfg2.N) :
    (dat2 V c).flushed 3 t
      = ((cfg2.win 3).blk t).view.read (Elt Ideal) (affineLogSoftmax (V c main_v44) (V c main_v20) (V c main_v22)) := by
  show (cfg2.win 3).cut (grid2.coords t) ((dat2 V c).after 3 t) = _
  rw [after2_3]
  unfold out2_3
  rw [View.canon_unit_zero zero_origin]
  simp only [View.ld_unit_zero (S := S5000x40) zero_origin, View.ld_unit_zero (S := S5000x1) zero_origin,
    View.ld_unit_zero (S := S1x40) zero_origin]
  obtain ⟨e0, e1, e2, e3, e4, e5, e6, e7⟩ := index_facts t
  funext j
  show k2_pay1 (F := Ideal) (iblk2 V c 0 t) (iblk2 V c 1 t) (iblk2 V c 2 t) j
    = affineLogSoftmax (V c main_v44) (V c main_v20) (V c main_v22) (((cfg2.win 3).blk t).view.emb j)
  refine (block_log_softmax_at _ _ _ j).trans ?_
  have hrow : ∀ jj : Fin 40,
      logits (V c main_v44) (V c main_v20) (V c main_v22) (ix2 ((((cfg2.win 3).blk t).view.emb j) 0 : Fin 50000) jj)
        = blockLogit (iblk2 V c 0 t) (iblk2 V c 1 t) (iblk2 V c 2 t) (j 0 : Fin 5000) jj := fun jj => by
    have h0 : iblk2 V c 0 t (ix2 (j 0 : Fin 5000) jj)
        = V c main_v44 (ix2 ((((cfg2.win 3).blk t).view.emb j) 0 : Fin 50000) jj) := by
      show V c main_v44 (((cfg2.win 0).blk t).view.emb (ix2 (j 0 : Fin 5000) jj)) = _
      refine congrArg (V c main_v44) (funext fun x => Fin.ext ?_)
      match x with
      | ⟨0, _⟩ =>
        show win2_0.index t (0 : Fin 2) * 5000 + 1 * (j 0).val = win2_3.index t (0 : Fin 2) * 5000 + 1 * (j 0).val
        omega
      | ⟨1, _⟩ =>
        show win2_0.index t (1 : Fin 2) * 40 + 1 * jj.val = jj.val
        omega
    have h1 : iblk2 V c 1 t (ix2 (j 0 : Fin 5000) (0 : Fin 1))
        = V c main_v20 (ix2 ((((cfg2.win 3).blk t).view.emb j) 0 : Fin 50000) (0 : Fin 1)) := by
      show V c main_v20 (((cfg2.win 1).blk t).view.emb (ix2 (j 0 : Fin 5000) (0 : Fin 1))) = _
      refine congrArg (V c main_v20) (funext fun x => Fin.ext ?_)
      match x with
      | ⟨0, _⟩ =>
        show win2_1.index t (0 : Fin 2) * 5000 + 1 * (j 0).val = win2_3.index t (0 : Fin 2) * 5000 + 1 * (j 0).val
        omega
      | ⟨1, _⟩ =>
        show win2_1.index t (1 : Fin 2) * 1 + 1 * 0 = 0
        omega
    have h2 : iblk2 V c 2 t (ix2 (0 : Fin 1) jj) = V c main_v22 (ix2 (0 : Fin 1) jj) := by
      show V c main_v22 (((cfg2.win 2).blk t).view.emb (ix2 (0 : Fin 1) jj)) = _
      refine congrArg (V c main_v22) (funext fun x => Fin.ext ?_)
      match x with
      | ⟨0, _⟩ =>
        show win2_2.index t (0 : Fin 2) * 1 + 1 * 0 = 0
        omega
      | ⟨1, _⟩ =>
        show win2_2.index t (1 : Fin 2) * 40 + 1 * jj.val = jj.val
        omega
    refine (logits_apply (V c main_v44) (V c main_v20) (V c main_v22) _ jj).trans ?_
    unfold blockLogit
    rw [h0, h1, h2]
  have hidx : ((cfg2.win 3).blk t).view.emb j
      = (ix2 ((((cfg2.win 3).blk t).view.emb j) 0 : Fin 50000) (j 1 : Fin 40) : S50000x40.Idx) := by
    funext x
    apply Fin.ext
    match x with
    | ⟨0, _⟩ => rfl
    | ⟨1, _⟩ =>
      show win2_3.index t (1 : Fin 2) * 40 + 1 * (j 1).val = (j 1).val
      omega
  rw [hidx]
  exact (logSoftmax_of_row _ _ _ _ hrow).symm

/-- An index of the output array is in grid point t's block iff each coordinate is in the block's range on its axis. -/
theorem mem_blk (t : Fin cfg2.N) (i : S50000x40.Idx) :
    i ∈ ((cfg2.win 3).blk t).view.set ↔ ∀ a : Fin 2, win2_3.index t a * S5000x40.size a ≤ (i a).val
      ∧ (i a).val < win2_3.index t a * S5000x40.size a + S5000x40.size a := by
  show i ∈ ((View.whole main_v45).slice (win2_3.rect t)).set ↔ _
  rw [View.set_slice_whole, Rect.mem_set_unit]
  exact Iff.rfl

/-- Every row of the output is in some grid point's block: row r is in block r / 5000. -/
theorem covered (i : S50000x40.Idx) :
    ∃ t : Fin cfg2.N, (cfg2.win 3).flush t = true ∧ i ∈ ((cfg2.win 3).blk t).view.set := by
  have hi0 : (i 0).val < 50000 := (i 0).isLt
  have hi1 : (i 1).val < 40 := (i 1).isLt
  obtain ⟨t, ht⟩ := index_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 40 ≤ (i 1).val ∧ (i 1).val < win2_3.index t (1 : Fin 2) * 40 + 40
    omega

/-- The region's output array after its 10 grid points: the affine step and log-softmax of the arrays as the region
    finds them. -/
theorem final (c : Dev nD) :
    (dat2 V c).arrAt 3 cfg2.N = affineLogSoftmax (V c main_v44) (V c main_v20) (V c main_v22) :=
  (dat2 V c).arrAt_eq_of_cover 3 _ (fun t _ => flushed_eq V c t) covered

end Cert.KernelIdeal.Dense3

end
-- ==== Proof.EdgeStep.lean ====
/-
  The edge step: rows gathered at the edges' sources and added up at the edges' destinations.

  Both programs carry a node array H across the graph in the same way: the source indices are normalised (a negative
  index counts from the end), row `src e` of H is taken for every edge e, and the rows are added into a zero array at
  row `dst e`. Here that step is named once, for the 128-column and the 40-column arrays, as a function of H and of the
  two index arrays; it is never opened. The reference's stages after its two matrix products are this function of
  those products, by definition.
-/
import proofs.«110680_j63376537420316_1_alg».proof.Proof.RefRead

noncomputable section

namespace Cert.ReferenceIdeal.EdgeStep

open Cert.ReferenceIdeal Cert.ReferenceIdeal.ReadP Idealize.ShloMosaic

/-- The edge step on a 128-column node array. -/
def edgeSum128 (H : (⟨S50000x128, .f32⟩ : BufTy).Contents (Elt Ideal)) (x1 x2 : (⟨S1600000, .i32⟩ : BufTy).Contents (Elt Ideal)) :
    (⟨S50000x128, .f32⟩ : BufTy).Contents (Elt Ideal) :=
  Host.scatterAdd (F := Ideal) (φ := .f32) scatter_S50000x128_S1600000x1_S1600000x128_1_0_0_1 (val_main_v30 (F := Ideal)) (val_main_v31 (F := Ideal) x2)
    (Host.gather (α := Ideal .f32) gather_S50000x128_S1600000x1_S1600000x128_1_0_n_n_0_1_1128 H (val_main_v28 (F := Ideal) x1))

/-- The edge step on a 40-column node array. -/
def edgeSum40 (H : (⟨S50000x40, .f32⟩ : BufTy).Contents (Elt Ideal)) (x1 x2 : (⟨S1600000, .i32⟩ : BufTy).Contents (Elt Ideal)) :
    (⟨S50000x40, .f32⟩ : BufTy).Contents (Elt Ideal) :=
  Host.scatterAdd (F := Ideal) (φ := .f32) scatter_S50000x40_S1600000x1_S1600000x40_1_0_0_1 (val_main_v50 (F := Ideal)) (val_main_v51 (F := Ideal) x2)
    (Host.gather (α := Ideal .f32) gather_S50000x40_S1600000x1_S1600000x40_1_0_n_n_0_1_140 H (val_main_v48 (F := Ideal) x1))

/-- The reference's array after its first edge step is the edge step of its first product. -/
theorem v32_eq (x0 : (⟨S50000x256, .f32⟩ : BufTy).Contents (Elt Ideal)) (x1 x2 : (⟨S1600000, .i32⟩ : BufTy).Contents (Elt Ideal))
    (x3 : (⟨S256x128, .f32⟩ : BufTy).Contents (Elt Ideal)) :
    val_main_v32 (F := Ideal) x0 x1 x2 x3 = edgeSum128 (val_main_v22 (F := Ideal) x0 x1 x3) x1 x2 := by
  unfold val_main_v32 val_main_v29 edgeSum128
  rfl

/-- The reference's array after its second edge step is the edge step of its second product. -/
theorem v52_eq (x0 : (⟨S50000x256, .f32⟩ : BufTy).Contents (Elt Ideal)) (x1 x2 : (⟨S1600000, .i32⟩ : BufTy).Contents (Elt Ideal))
    (x3 : (⟨S256x128, .f32⟩ : BufTy).Contents (Elt Ideal)) (x4 : (⟨S128, .f32⟩ : BufTy).Contents (Elt Ideal))
    (x5 : (⟨S128x40, .f32⟩ : BufTy).Contents (Elt Ideal)) :
    val_main_v52 (F := Ideal) x0 x1 x2 x3 x4 x5 = edgeSum40 (val_main_v42 (F := Ideal) x0 x1 x2 x3 x4 x5) x1 x2 := by
  unfold val_main_v52 val_main_v49 edgeSum40
  rfl

end Cert.ReferenceIdeal.EdgeStep

end
-- ==== Proof.RefLayers.lean ====
/-
  The reference program's three dense steps are the specification's, index by index on the extended reals.

  Each dense step of the reference is a chain of elementwise operations and broadcasts feeding a matrix product (or,
  for the last one, the row-wise log-softmax). Read at an index (r, c), a column array [n, 1] broadcast across the
  columns is the column at (r, 0), a row array [1, n] broadcast down the rows is the row at (0, c), a matrix
  product is the sum over the contracted coordinate k of the left operand at (r, k) times the right at (k, c), and the
  elementwise operations are the extended reals' own. So:

    * the first matrix product is  Σ_k (X[r,k] · s[r,0]) · W[k,c];
    * the second is  Σ_k ((A[r,k] · p[r,0] + b[0,k]) · q[r,0]) · W[k,c];
    * the result is the row-wise log-softmax of  h[r,c] = A[r,c] · p[r,0] + b[0,c].

  The log-softmax's row maximum is a reduction with the body max, started at the word 0xFF800000, which denotes −∞, the
  identity of max: it is the fold of max from ⊥ over the row's 40 columns; the reference then takes the maximum of that
  with a broadcast −∞ once more, which changes nothing. Its sum of exponentials starts at the word 0x00000000, which
  denotes 0, and 0 + x = x.

  The message-passed arrays (the gathers and scatters over the edges) enter only as whole arrays read at an index and
  are never opened.
-/
import proofs.«110680_j63376537420316_1_alg».proof.Proof.RefRead
import proofs.«110680_j63376537420316_1_alg».proof.Proof.GraphLayers
import Idealize.ShloMosaic.PureOps.Reduce
import Idealize.ShloMosaic.PureOps.Ideal
import Idealize.ShloMosaic.PureOps.Ideal.Laws
import Idealize.ShloMosaic.Lib.ValueIdx

noncomputable section

namespace Cert.ReferenceIdeal.RefLayers

open Cert.ReferenceIdeal Cert.ReferenceIdeal.ReadP Cert.GraphLayers Idealize.ShloMosaic Idealize.ShloMosaic.ValueIdx

/-! ## The indices the operations read at, by coordinates -/

/-- The first product's left operand is read at (r, k) … -/
theorem lidx22 (r : Fin 50000) (c : Fin 128) (k : Fin 256) : lidx_main_v22 (ix2 r c) k = ix2 r k :=
  funext fun a => Fin.ext (by match a with | ⟨0, _⟩ => rfl | ⟨1, _⟩ => rfl)
/-- … and its right operand at (k, c). -/
theorem ridx22 (r : Fin 50000) (c : Fin 128) (k : Fin 256) : ridx_main_v22 (ix2 r c) k = ix2 k c :=
  funext fun a => Fin.ext (by match a with | ⟨0, _⟩ => rfl | ⟨1, _⟩ => rfl)
/-- A column array broadcast along 256 columns is read at (r, 0). -/
theorem idx20 (r : Fin 50000) (k : Fin 256) : idx_main_v20 (ix2 r k) = ix2 r (0 : Fin 1) :=
  funext fun a => Fin.ext (by match a with | ⟨0, _⟩ => rfl | ⟨1, _⟩ => rfl)

/-- The second product's left operand is read at (r, k) … -/
theorem lidx42 (r : Fin 50000) (c : Fin 40) (k : Fin 128) : lidx_main_v42 (ix2 r c) k = ix2 r k :=
  funext fun a => Fin.ext (by match a with | ⟨0, _⟩ => rfl | ⟨1, _⟩ => rfl)
/-- … and its right operand at (k, c). -/
theorem ridx42 (r : Fin 50000) (c : Fin 40) (k : Fin 128) : ridx_main_v42 (ix2 r c) k = ix2 k c :=
  funext fun a => Fin.ext (by match a with | ⟨0, _⟩ => rfl | ⟨1, _⟩ => rfl)
/-- A column array broadcast along 128 columns is read at (r, 0): the in-degree factor … -/
theorem idx34 (r : Fin 50000) (k : Fin 128) : idx_main_v34 (ix2 r k) = ix2 r (0 : Fin 1) :=
  funext fun a => Fin.ext (by match a with | ⟨0, _⟩ => rfl | ⟨1, _⟩ => rfl)
/-- … and the out-degree factor. -/
theorem idx40 (r : Fin 50000) (k : Fin 128) : idx_main_v40 (ix2 r k) = ix2 r (0 : Fin 1) :=
  funext fun a => Fin.ext (by match a with | ⟨0, _⟩ => rfl | ⟨1, _⟩ => rfl)
/-- A row array broadcast down 50000 rows is read at (0, k). -/
theorem idx37 (r : Fin 50000) (k : Fin 128) : idx_main_v37 (ix2 r k) = ix2 (0 : Fin 1) k :=
  funext fun a => Fin.ext (by match a with | ⟨0, _⟩ => rfl | ⟨1, _⟩ => rfl)

/-- A column array broadcast along 40 columns is read at (r, 0). -/
theorem idx54 (r : Fin 50000) (c : Fin 40) : idx_main_v54 (ix2 r c) = ix2 r (0 : Fin 1) :=
  funext fun a => Fin.ext (by match a with | ⟨0, _⟩ => rfl | ⟨1, _⟩ => rfl)
/-- A row array broadcast down 50000 rows is read at (0, c). -/
theorem idx57 (r : Fin 50000) (c : Fin 40) : idx_main_v57 (ix2 r c) = ix2 (0 : Fin 1) c :=
  funext fun a => Fin.ext (by match a with | ⟨0, _⟩ => rfl | ⟨1, _⟩ => rfl)

/-- The row maximum, a [50000] array broadcast to a column and then along 40 columns, is read at row r. -/
theorem idxMax (r : Fin 50000) (c : Fin 40) : idx_main_call2_v3 (idx_main_call2_v4 (ix2 r c)) = ix1 r :=
  funext fun a => Fin.ext (by match a with | ⟨0, _⟩ => rfl)
/-- The row sum, likewise broadcast, is at (r, c) the sum over k of the summand at (r, k). -/
theorem idxSum (r : Fin 50000) (c : Fin 40) (k : Fin 40) :
    idx_main_call2_v7 (idx_main_call2_v8 (idx_main_call2_v10 (ix2 r c))) k = ix2 r k :=
  funext fun a => Fin.ext (by match a with | ⟨0, _⟩ => rfl | ⟨1, _⟩ => rfl)

/-! ## Layer 1 before the edges -/

/-- The reference's first matrix product is the row-scaled product of the input by the out-degree column with the first
    weight matrix. -/
theorem dense1 (x0 : (⟨S50000x256, .f32⟩ : BufTy).Contents (Elt Ideal)) (x1 : (⟨S1600000, .i32⟩ : BufTy).Contents (Elt Ideal)) (x3 : (⟨S256x128, .f32⟩ : BufTy).Contents (Elt Ideal)) :
    val_main_v22 (F := Ideal) x0 x1 x3 = scaledProduct x0 (val_main_v19 (F := Ideal) x1) x3 := by
  funext i
  obtain ⟨r, c, rfl⟩ : ∃ (r : Fin 50000) (c : Fin 128), i = ix2 r c := ⟨i 0, i 1, eq_ix2 i⟩
  rw [val_main_v22_apply]
  unfold scaledProduct
  refine Finset.sum_congr rfl fun k _ => ?_
  rw [val_main_v21_apply, val_main_v20_apply, lidx22, ridx22, idx20]
  generalize val_main_v19 (F := Ideal) x1 = s
  rfl

/-! ## Layer 1 after the edges, fused with layer 2 before the edges -/

/-- The reference's second matrix product is the fused affine step of the message-passed array with the in-degree and
    out-degree columns, the first bias row and the second weight matrix. -/
theorem dense2 (x0 : (⟨S50000x256, .f32⟩ : BufTy).Contents (Elt Ideal)) (x1 x2 : (⟨S1600000, .i32⟩ : BufTy).Contents (Elt Ideal)) (x3 : (⟨S256x128, .f32⟩ : BufTy).Contents (Elt Ideal)) (x4 : (⟨S128, .f32⟩ : BufTy).Contents (Elt Ideal)) (x5 : (⟨S128x40, .f32⟩ : BufTy).Contents (Elt Ideal)) :
    val_main_v42 (F := Ideal) x0 x1 x2 x3 x4 x5
      = affineScaledProduct (val_main_v32 (F := Ideal) x0 x1 x2 x3) (val_main_v33 (F := Ideal) x2)
          (val_main_v39 (F := Ideal) x1) (val_main_v36 (F := Ideal) x4) x5 := by
  funext i
  obtain ⟨r, c, rfl⟩ : ∃ (r : Fin 50000) (c : Fin 40), i = ix2 r c := ⟨i 0, i 1, eq_ix2 i⟩
  rw [val_main_v42_apply]
  unfold affineScaledProduct
  refine Finset.sum_congr rfl fun k _ => ?_
  rw [val_main_v41_apply, val_main_v38_apply, val_main_v35_apply, val_main_v34_apply, val_main_v37_apply,
    val_main_v40_apply, lidx42, ridx42, idx34, idx37, idx40]
  generalize val_main_v32 (F := Ideal) x0 x1 x2 x3 = A
  generalize val_main_v33 (F := Ideal) x2 = p
  generalize val_main_v39 (F := Ideal) x1 = q
  generalize val_main_v36 (F := Ideal) x4 = b
  rfl

/-! ## Layer 2 after the edges and the log-softmax -/

/-- The array the log-softmax is taken of is the logits: the message-passed array scaled by the in-degree column plus
    the second bias row. -/
theorem logits_read (x0 : (⟨S50000x256, .f32⟩ : BufTy).Contents (Elt Ideal)) (x1 x2 : (⟨S1600000, .i32⟩ : BufTy).Contents (Elt Ideal)) (x3 : (⟨S256x128, .f32⟩ : BufTy).Contents (Elt Ideal)) (x4 : (⟨S128, .f32⟩ : BufTy).Contents (Elt Ideal)) (x5 : (⟨S128x40, .f32⟩ : BufTy).Contents (Elt Ideal)) (x6 : (⟨S40, .f32⟩ : BufTy).Contents (Elt Ideal)) :
    val_main_v58 (F := Ideal) x0 x1 x2 x3 x4 x5 x6
      = logits (val_main_v52 (F := Ideal) x0 x1 x2 x3 x4 x5) (val_main_v53 (F := Ideal) x2) (val_main_v56 (F := Ideal) x6) := by
  funext j
  obtain ⟨r, c, rfl⟩ : ∃ (r : Fin 50000) (c : Fin 40), j = ix2 r c := ⟨j 0, j 1, eq_ix2 j⟩
  rw [val_main_v58_apply, val_main_v55_apply, val_main_v54_apply, val_main_v57_apply, idx54, idx57]
  generalize val_main_v52 (F := Ideal) x0 x1 x2 x3 x4 x5 = A
  generalize val_main_v53 (F := Ideal) x2 = p
  generalize val_main_v56 (F := Ideal) x6 = b
  rfl

/-- The word 0xFF800000 denotes −∞. -/
theorem ofBits_negInf : Ideal.ofBits .f32 0xFF800000#32 = (⊥ : EReal) := by simp [Ideal.ofBits, Ideal.ieee]

/-- A reduction over the columns with the body max, started at an initial value that is −∞, is at row r the fold of max
    from ⊥ over the row's 40 entries. -/
theorem hostMax_row (h : S50000x40.Idx → EReal) (init : S_.Idx → EReal) (h' : S50000x40.ReducesTo [1] S50000)
    (hu : 0 < S_.numel) (hinit : init (Shape.Idx.first hu) = ⊥) (r : S50000.Idx) :
    Host.reduce (FloatOps.maximumf (F := Ideal) (φ := .f32)) h init h' hu r = rowMax h (r 0) := by
  refine (Host.reduce_eq_fold_single (FloatOps.maximumf (F := Ideal) (φ := .f32)) h init h' (by decide) hu r).trans ?_
  rw [hinit]
  unfold rowMax
  refine Finset.fold_congr fun k _ => ?_
  exact congrArg h (funext fun a => Fin.ext (by match a with | ⟨0, _⟩ => rfl | ⟨1, _⟩ => rfl))

/-- The maximum the reference subtracts, at row r: max(−∞, the row's maximum) is the row's maximum. -/
theorem rowMax_read (x0 : (⟨S50000x256, .f32⟩ : BufTy).Contents (Elt Ideal)) (x1 x2 : (⟨S1600000, .i32⟩ : BufTy).Contents (Elt Ideal)) (x3 : (⟨S256x128, .f32⟩ : BufTy).Contents (Elt Ideal)) (x4 : (⟨S128, .f32⟩ : BufTy).Contents (Elt Ideal)) (x5 : (⟨S128x40, .f32⟩ : BufTy).Contents (Elt Ideal)) (x6 : (⟨S40, .f32⟩ : BufTy).Contents (Elt Ideal)) (r : S50000.Idx) :
    val_main_call2_v2 (F := Ideal) x0 x1 x2 x3 x4 x5 x6 r = rowMax (val_main_v58 (F := Ideal) x0 x1 x2 x3 x4 x5 x6) (r 0) := by
  rw [val_main_call2_v2_apply, val_main_call2_v1_apply, val_main_call2_cst_0_apply]
  unfold val_main_call2_v0
  generalize val_main_v58 (F := Ideal) x0 x1 x2 x3 x4 x5 x6 = h
  rw [hostMax_row h (val_main_call2_cst (F := Ideal)) Gen.reducesTo_S50000x40_S50000_d1 Gen.h_S_
    ((val_main_call2_cst_apply (F := Ideal) _).trans ofBits_negInf) r]
  show max (Ideal.ofBits .f32 0xFF800000#32) (rowMax h (r 0)) = rowMax h (r 0)
  rw [ofBits_negInf, max_bot_left]

/-- The reference's shifted logits are the logits minus their row's maximum. -/
theorem shifted_read (x0 : (⟨S50000x256, .f32⟩ : BufTy).Contents (Elt Ideal)) (x1 x2 : (⟨S1600000, .i32⟩ : BufTy).Contents (Elt Ideal)) (x3 : (⟨S256x128, .f32⟩ : BufTy).Contents (Elt Ideal)) (x4 : (⟨S128, .f32⟩ : BufTy).Contents (Elt Ideal)) (x5 : (⟨S128x40, .f32⟩ : BufTy).Contents (Elt Ideal)) (x6 : (⟨S40, .f32⟩ : BufTy).Contents (Elt Ideal)) (j : S50000x40.Idx) :
    val_main_call2_v5 (F := Ideal) x0 x1 x2 x3 x4 x5 x6 j = shifted (val_main_v58 (F := Ideal) x0 x1 x2 x3 x4 x5 x6) j := by
  obtain ⟨r, c, rfl⟩ : ∃ (r : Fin 50000) (c : Fin 40), j = ix2 r c := ⟨j 0, j 1, eq_ix2 j⟩
  rw [val_main_call2_v5_apply, val_main_call2_v4_apply, val_main_call2_v3_apply, idxMax, rowMax_read]
  generalize val_main_v58 (F := Ideal) x0 x1 x2 x3 x4 x5 x6 = h
  rfl

/-- The reference's result is the row-wise log-softmax of the logits. -/
theorem logSoftmax_read (x0 : (⟨S50000x256, .f32⟩ : BufTy).Contents (Elt Ideal)) (x1 x2 : (⟨S1600000, .i32⟩ : BufTy).Contents (Elt Ideal)) (x3 : (⟨S256x128, .f32⟩ : BufTy).Contents (Elt Ideal)) (x4 : (⟨S128, .f32⟩ : BufTy).Contents (Elt Ideal)) (x5 : (⟨S128x40, .f32⟩ : BufTy).Contents (Elt Ideal)) (x6 : (⟨S40, .f32⟩ : BufTy).Contents (Elt Ideal)) :
    val_main_v59 (F := Ideal) x0 x1 x2 x3 x4 x5 x6 = logSoftmax (val_main_v58 (F := Ideal) x0 x1 x2 x3 x4 x5 x6) := by
  funext j
  obtain ⟨r, c, rfl⟩ : ∃ (r : Fin 50000) (c : Fin 40), j = ix2 r c := ⟨j 0, j 1, eq_ix2 j⟩
  rw [val_main_v59_apply, val_main_call2_v10_apply, val_main_call2_v9_apply, val_main_call2_v8_apply,
    val_main_call2_v7_apply, val_main_call2_cst_1_apply]
  unfold logSoftmax
  rw [shifted_read]
  have hsum : ∀ k : Fin 40, val_main_call2_v6 (F := Ideal) x0 x1 x2 x3 x4 x5 x6
        (idx_main_call2_v7 (idx_main_call2_v8 (idx_main_call2_v10 (ix2 r c))) k)
      = Ideal.exp (shifted (val_main_v58 (F := Ideal) x0 x1 x2 x3 x4 x5 x6) (ix2 r k)) := by
    intro k
    rw [idxSum, val_main_call2_v6_apply, shifted_read]
    generalize val_main_v58 (F := Ideal) x0 x1 x2 x3 x4 x5 x6 = h
    rfl
  rw [Finset.sum_congr rfl fun k _ => hsum k]
  generalize val_main_v58 (F := Ideal) x0 x1 x2 x3 x4 x5 x6 = h
  show shifted h (ix2 r c) - Ideal.log (Ideal.ofBits .f32 0x00000000#32 + ∑ k : Fin 40, Ideal.exp (shifted h (ix2 r k)))
    = shifted h (ix2 r c) - Ideal.log (∑ k : Fin 40, Ideal.exp (shifted h (ix2 r k)))
  rw [Ideal.ofBits_zero_f32, zero_add]

/-- The reference's result is the affine step of the second message-passed array with the in-degree column and the
    second bias row, followed by the row-wise log-softmax. -/
theorem dense3 (x0 : (⟨S50000x256, .f32⟩ : BufTy).Contents (Elt Ideal)) (x1 x2 : (⟨S1600000, .i32⟩ : BufTy).Contents (Elt Ideal)) (x3 : (⟨S256x128, .f32⟩ : BufTy).Contents (Elt Ideal)) (x4 : (⟨S128, .f32⟩ : BufTy).Contents (Elt Ideal)) (x5 : (⟨S128x40, .f32⟩ : BufTy).Contents (Elt Ideal)) (x6 : (⟨S40, .f32⟩ : BufTy).Contents (Elt Ideal)) :
    val_main_v59 (F := Ideal) x0 x1 x2 x3 x4 x5 x6
      = affineLogSoftmax (val_main_v52 (F := Ideal) x0 x1 x2 x3 x4 x5) (val_main_v53 (F := Ideal) x2)
          (val_main_v56 (F := Ideal) x6) :=
  (logSoftmax_read x0 x1 x2 x3 x4 x5 x6).trans (congrArg logSoftmax (logits_read x0 x1 x2 x3 x4 x5 x6))

end Cert.ReferenceIdeal.RefLayers

end
-- ==== Proof.Network.lean ====
/-
  The whole network as one function of the seven arguments.

  X = x0 (node features), x1 = src and x2 = dst (the edges), x3, x4 = W1, b1 and x5, x6 = W2, b2. With s the column of
  source-degree factors and p the column of destination-degree factors (functions of x1 and of x2 alone), the result is

      logSoftmax-affine ( edges ( affine-product ( edges ( scaled-product X s W1 ) ) p s b1 W2 ) p b2 ),

  the three dense steps of `GraphLayers` joined by the two edge steps of `EdgeStep`. The factor columns and bias rows
  are the reference's own stages (a broadcast of the degree vector into a column, of a bias into a row). The reference's
  result stage is this function by the three dense-step equations and the definition of the edge steps.
-/
import proofs.«110680_j63376537420316_1_alg».proof.Proof.EdgeStep
import proofs.«110680_j63376537420316_1_alg».proof.Proof.GraphLayers
import proofs.«110680_j63376537420316_1_alg».proof.Proof.RefLayers

noncomputable section

namespace Cert.ReferenceIdeal.Network

open Cert.ReferenceIdeal Cert.ReferenceIdeal.ReadP Cert.ReferenceIdeal.EdgeStep Cert.GraphLayers Idealize.ShloMosaic

/-- The network's result array as a function of the arguments. -/
def network (x0 : (⟨S50000x256, .f32⟩ : BufTy).Contents (Elt Ideal)) (x1 x2 : (⟨S1600000, .i32⟩ : BufTy).Contents (Elt Ideal)) (x3 : (⟨S256x128, .f32⟩ : BufTy).Contents (Elt Ideal))
    (x4 : (⟨S128, .f32⟩ : BufTy).Contents (Elt Ideal)) (x5 : (⟨S128x40, .f32⟩ : BufTy).Contents (Elt Ideal)) (x6 : (⟨S40, .f32⟩ : BufTy).Contents (Elt Ideal)) :
    (⟨S50000x40, .f32⟩ : BufTy).Contents (Elt Ideal) :=
  affineLogSoftmax
    (edgeSum40
      (affineScaledProduct
        (edgeSum128 (scaledProduct x0 (val_main_v19 (F := Ideal) x1) x3) x1 x2)
        (val_main_v33 (F := Ideal) x2) (val_main_v39 (F := Ideal) x1) (val_main_v36 (F := Ideal) x4) x5)
      x1 x2)
    (val_main_v53 (F := Ideal) x2) (val_main_v56 (F := Ideal) x6)

/-- The reference's result stage is the network. -/
theorem reference_eq (x0 : (⟨S50000x256, .f32⟩ : BufTy).Contents (Elt Ideal)) (x1 x2 : (⟨S1600000, .i32⟩ : BufTy).Contents (Elt Ideal)) (x3 : (⟨S256x128, .f32⟩ : BufTy).Contents (Elt Ideal))
    (x4 : (⟨S128, .f32⟩ : BufTy).Contents (Elt Ideal)) (x5 : (⟨S128x40, .f32⟩ : BufTy).Contents (Elt Ideal)) (x6 : (⟨S40, .f32⟩ : BufTy).Contents (Elt Ideal)) :
    val_main_v59 (F := Ideal) x0 x1 x2 x3 x4 x5 x6 = network x0 x1 x2 x3 x4 x5 x6 := by
  rw [Cert.ReferenceIdeal.RefLayers.dense3, v52_eq, Cert.ReferenceIdeal.RefLayers.dense2, v32_eq,
    Cert.ReferenceIdeal.RefLayers.dense1]
  rfl

end Cert.ReferenceIdeal.Network

end
-- ==== Proof.KernelFold.lean ====
/-
  What each segment boundary of the kernel program holds, at the buffers the next region reads.

  The program's run is a fold of its ten segments over the launch memory (the generated frame names the boundary
  contents W0 … W10). Here the fold is read, boundary by boundary, at just the buffers that matter:

    * before the first region: X and W1 are the launch arguments; the column of source-degree factors is the reshape
      of the degree-factor vector into a column — the same array as its broadcast along axis 0, which is how the
      reference holds it; likewise the column of destination-degree factors and the two bias rows;
    * a region leaves its inputs and every other buffer as it found them, and its output array at the dense step of
      `GraphLayers` of its inputs (the three region modules);
    * a stretch of host operations between two regions is the edge step of `EdgeStep` of the region's output and the two
      index arrays, and leaves every other buffer alone.

  Chaining these, the result array at the last boundary is `Network.network` of the seven launch arguments.
-/
import proofs.«110680_j63376537420316_1_alg».proof.Proof.Gen.KernelIdeal.Frame
import proofs.«110680_j63376537420316_1_alg».proof.Proof.Dense1Kernel
import proofs.«110680_j63376537420316_1_alg».proof.Proof.Dense2Kernel
import proofs.«110680_j63376537420316_1_alg».proof.Proof.Dense3Kernel
import proofs.«110680_j63376537420316_1_alg».proof.Proof.Network
import proofs.«110680_j63376537420316_1_alg».proof.Proof.LibColumnRow
import Idealize.ShloMosaic.Lib.StableHlo.Run
import Idealize.ShloMosaic.PureOps.Ideal

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx
open Cert.GraphLayers Cert.LibColumnRow
open Cert.ReferenceIdeal.ReadP Cert.ReferenceIdeal.EdgeStep Cert.ReferenceIdeal.Network
open Idealize.ShloMosaic.Pipeline (Dat)

variable (m : (ℓ : Loc nD τ sig) → Buf (Elt Ideal) ℓ) (ρ : Dev nD → PrngReg)

/-- What a buffer holds after stretches of host operations, from any contents on entry. -/
local macro "host_read" : tactic =>
  `(tactic| (dsimp only [hostOps0, hostOps0_1, hostOps0_2, hostOps0_3, hostOps0_4, hostOps1, hostOps2]; after_results_simp))

/-! ## The two calls of the `where` function

A value written to, or read from, a buffer of an inlined call passes through the identification of the buffer's
recorded type with the value's type; the two are the same type, and the passage is the identity. Stated once per call,
over arbitrary values. -/

/-- The `where` of call 0, with every value passed through its buffer's type identification: the plain selection. -/
theorem where_call0 (p8 q8 r8 p11 q11 r11 pc qc rc p0 q0 r0 p1 q1 r1 p12 q12 r12)
    (A : (⟨S50000, .i1⟩ : BufTy).Contents (Elt Ideal)) (B : (⟨S50000, .f32⟩ : BufTy).Contents (Elt Ideal))
    (Z : (⟨S_, .f32⟩ : BufTy).Contents (Elt Ideal)) :
    (TRef.of (T := ⟨S50000, .f32⟩) main_v12 p12 q12 r12).toBuf (Val := Elt Ideal)
      (select ((TRef.of (T := ⟨S50000, .i1⟩) main_v8 p8 q8 r8).ofBuf A)
        ((TRef.of (T := ⟨S50000, .f32⟩) main_v11 p11 q11 r11).ofBuf B)
        ((TRef.of (T := ⟨S50000, .f32⟩) main_call0_v1 p1 q1 r1).ofBuf
          ((TRef.of (T := ⟨S50000, .f32⟩) main_call0_v1 p1 q1 r1).toBuf
            (broadcastInDim S50000 ![] bcast_S_S50000
              ((TRef.of (T := ⟨S_, .f32⟩) main_call0_v0 p0 q0 r0).ofBuf
                ((TRef.of (T := ⟨S_, .f32⟩) main_call0_v0 p0 q0 r0).toBuf
                  (id ((TRef.of (T := ⟨S_, .f32⟩) main_cst_4 pc qc rc).ofBuf Z))))))))
      = select A B (broadcastInDim S50000 ![] bcast_S_S50000 Z) := rfl

/-- The `where` of call 1, with every value passed through its buffer's type identification: the plain selection. -/
theorem where_call1 (p8 q8 r8 p11 q11 r11 pc qc rc p0 q0 r0 p1 q1 r1 p12 q12 r12)
    (A : (⟨S50000, .i1⟩ : BufTy).Contents (Elt Ideal)) (B : (⟨S50000, .f32⟩ : BufTy).Contents (Elt Ideal))
    (Z : (⟨S_, .f32⟩ : BufTy).Contents (Elt Ideal)) :
    (TRef.of (T := ⟨S50000, .f32⟩) main_v18 p12 q12 r12).toBuf (Val := Elt Ideal)
      (select ((TRef.of (T := ⟨S50000, .i1⟩) main_v14 p8 q8 r8).ofBuf A)
        ((TRef.of (T := ⟨S50000, .f32⟩) main_v17 p11 q11 r11).ofBuf B)
        ((TRef.of (T := ⟨S50000, .f32⟩) main_call1_v1 p1 q1 r1).ofBuf
          ((TRef.of (T := ⟨S50000, .f32⟩) main_call1_v1 p1 q1 r1).toBuf
            (broadcastInDim S50000 ![] bcast_S_S50000
              ((TRef.of (T := ⟨S_, .f32⟩) main_call1_v0 p0 q0 r0).ofBuf
                ((TRef.of (T := ⟨S_, .f32⟩) main_call1_v0 p0 q0 r0).toBuf
                  (id ((TRef.of (T := ⟨S_, .f32⟩) main_cst_7 pc qc rc).ofBuf Z))))))))
      = select A B (broadcastInDim S50000 ![] bcast_S_S50000 Z) := rfl

-- a scatter-add or a gather over the 1.6 million edges enters only as a function of its operands: two of them are
-- equal when their operands are
attribute [local irreducible] Host.scatterAdd Host.gather

/-! ## Before the first region -/

theorem entry_arg0 (c : Dev nD) : V5 m ρ c main_arg0 = m ((c : Thread nD τ).loc main_arg0) := by
  show StableHlo.after hostOps0_4 (StableHlo.after hostOps0_3 (StableHlo.after hostOps0_2 (StableHlo.after hostOps0_1
    (StableHlo.after hostOps0 (W0 m ρ c))))) (Proc.devRef .tc main_arg0) = _
  host_read
theorem entry_arg1 (c : Dev nD) : V5 m ρ c main_arg1 = m ((c : Thread nD τ).loc main_arg1) := by
  show StableHlo.after hostOps0_4 (StableHlo.after hostOps0_3 (StableHlo.after hostOps0_2 (StableHlo.after hostOps0_1
    (StableHlo.after hostOps0 (W0 m ρ c))))) (Proc.devRef .tc main_arg1) = _
  host_read
theorem entry_arg2 (c : Dev nD) : V5 m ρ c main_arg2 = m ((c : Thread nD τ).loc main_arg2) := by
  show StableHlo.after hostOps0_4 (StableHlo.after hostOps0_3 (StableHlo.after hostOps0_2 (StableHlo.after hostOps0_1
    (StableHlo.after hostOps0 (W0 m ρ c))))) (Proc.devRef .tc main_arg2) = _
  host_read
theorem entry_arg3 (c : Dev nD) : V5 m ρ c main_arg3 = m ((c : Thread nD τ).loc main_arg3) := by
  show StableHlo.after hostOps0_4 (StableHlo.after hostOps0_3 (StableHlo.after hostOps0_2 (StableHlo.after hostOps0_1
    (StableHlo.after hostOps0 (W0 m ρ c))))) (Proc.devRef .tc main_arg3) = _
  host_read
theorem entry_arg5 (c : Dev nD) : V5 m ρ c main_arg5 = m ((c : Thread nD τ).loc main_arg5) := by
  show StableHlo.after hostOps0_4 (StableHlo.after hostOps0_3 (StableHlo.after hostOps0_2 (StableHlo.after hostOps0_1
    (StableHlo.after hostOps0 (W0 m ρ c))))) (Proc.devRef .tc main_arg5) = _
  host_read

/-- The column of source-degree factors. -/
theorem entry_src_col (c : Dev nD) : V5 m ρ c main_v19 = val_main_v19 (F := Ideal) (m ((c : Thread nD τ).loc main_arg1)) := by
  show StableHlo.after hostOps0_4 (StableHlo.after hostOps0_3 (StableHlo.after hostOps0_2 (StableHlo.after hostOps0_1
    (StableHlo.after hostOps0 (W0 m ρ c))))) (Proc.devRef .tc main_v19) = _
  host_read
  have hx : W0 m ρ c (Proc.devRef .tc main_arg1) = m ((c : Thread nD τ).loc main_arg1) := rfl
  rw [hx]
  -- the degree test and the inverse square root are the reference's stages of the same index array
  have hA : cmpf (F := Ideal) .ogt (Host.scatterAdd (F := Ideal) (φ := .f32) scatter_S50000_S1600000x1_S1600000_n_0_0_1 (broadcastInDim S50000 ![] bcast_S_S50000 (constant (F := Ideal) S_ .f32 0x00000000#32)) (broadcastInDim S1600000x1 ![0] bcast_S1600000_S1600000x1_0 (m ((c : Thread nD τ).loc main_arg1))) (broadcastInDim S1600000 ![] bcast_S_S1600000 (constant (F := Ideal) S_ .f32 0x3F800000#32)))
      (broadcastInDim S50000 ![] bcast_S_S50000 (constant (F := Ideal) S_ .f32 0x00000000#32))
      = val_main_v8 (F := Ideal) (m ((c : Thread nD τ).loc main_arg1)) := rfl
  have hB : Host.rsqrt (F := Ideal) (maximumf (Host.scatterAdd (F := Ideal) (φ := .f32) scatter_S50000_S1600000x1_S1600000_n_0_0_1 (broadcastInDim S50000 ![] bcast_S_S50000 (constant (F := Ideal) S_ .f32 0x00000000#32)) (broadcastInDim S1600000x1 ![0] bcast_S1600000_S1600000x1_0 (m ((c : Thread nD τ).loc main_arg1))) (broadcastInDim S1600000 ![] bcast_S_S1600000 (constant (F := Ideal) S_ .f32 0x3F800000#32)))
      (broadcastInDim S50000 ![] bcast_S_S50000 (constant (F := Ideal) S_ .f32 0x3F800000#32)))
      = val_main_v11 (F := Ideal) (m ((c : Thread nD τ).loc main_arg1)) := rfl
  rw [hA, hB]
  rw [where_call0]
  show shapeCast (⟨2, ![50000, 1]⟩ : Shape) (val_main_v12 (F := Ideal) (m ((c : Thread nD τ).loc main_arg1))) _ = _
  exact shapeCast_col_eq_broadcastInDim _ _ Cert.ReferenceIdeal.Gen.bcast_S50000_S50000x1_0

/-- The column of destination-degree factors. -/
theorem entry_dst_col (c : Dev nD) : V5 m ρ c main_v20 = val_main_v33 (F := Ideal) (m ((c : Thread nD τ).loc main_arg2)) := by
  show StableHlo.after hostOps0_4 (StableHlo.after hostOps0_3 (StableHlo.after hostOps0_2 (StableHlo.after hostOps0_1
    (StableHlo.after hostOps0 (W0 m ρ c))))) (Proc.devRef .tc main_v20) = _
  host_read
  have hx : W0 m ρ c (Proc.devRef .tc main_arg2) = m ((c : Thread nD τ).loc main_arg2) := rfl
  rw [hx]
  -- the degree test and the inverse square root are the reference's stages of the same index array
  have hA : cmpf (F := Ideal) .ogt (Host.scatterAdd (F := Ideal) (φ := .f32) scatter_S50000_S1600000x1_S1600000_n_0_0_1 (broadcastInDim S50000 ![] bcast_S_S50000 (constant (F := Ideal) S_ .f32 0x00000000#32)) (broadcastInDim S1600000x1 ![0] bcast_S1600000_S1600000x1_0 (m ((c : Thread nD τ).loc main_arg2))) (broadcastInDim S1600000 ![] bcast_S_S1600000 (constant (F := Ideal) S_ .f32 0x3F800000#32)))
      (broadcastInDim S50000 ![] bcast_S_S50000 (constant (F := Ideal) S_ .f32 0x00000000#32))
      = val_main_v14 (F := Ideal) (m ((c : Thread nD τ).loc main_arg2)) := rfl
  have hB : Host.rsqrt (F := Ideal) (maximumf (Host.scatterAdd (F := Ideal) (φ := .f32) scatter_S50000_S1600000x1_S1600000_n_0_0_1 (broadcastInDim S50000 ![] bcast_S_S50000 (constant (F := Ideal) S_ .f32 0x00000000#32)) (broadcastInDim S1600000x1 ![0] bcast_S1600000_S1600000x1_0 (m ((c : Thread nD τ).loc main_arg2))) (broadcastInDim S1600000 ![] bcast_S_S1600000 (constant (F := Ideal) S_ .f32 0x3F800000#32)))
      (broadcastInDim S50000 ![] bcast_S_S50000 (constant (F := Ideal) S_ .f32 0x3F800000#32)))
      = val_main_v17 (F := Ideal) (m ((c : Thread nD τ).loc main_arg2)) := rfl
  rw [hA, hB]
  rw [where_call1]
  show shapeCast (⟨2, ![50000, 1]⟩ : Shape) (val_main_v18 (F := Ideal) (m ((c : Thread nD τ).loc main_arg2))) _ = _
  exact shapeCast_col_eq_broadcastInDim _ _ Cert.ReferenceIdeal.Gen.bcast_S50000_S50000x1_0

/-- The first layer's bias as a row. -/
theorem entry_bias1 (c : Dev nD) : V5 m ρ c main_v21 = val_main_v36 (F := Ideal) (m ((c : Thread nD τ).loc main_arg4)) := by
  show StableHlo.after hostOps0_4 (StableHlo.after hostOps0_3 (StableHlo.after hostOps0_2 (StableHlo.after hostOps0_1
    (StableHlo.after hostOps0 (W0 m ρ c))))) (Proc.devRef .tc main_v21) = _
  host_read
  show shapeCast (⟨2, ![1, 128]⟩ : Shape) (m ((c : Thread nD τ).loc main_arg4)) _ = _
  exact shapeCast_row_eq_broadcastInDim _ _ Cert.ReferenceIdeal.Gen.bcast_S128_S1x128_1

/-- The second layer's bias as a row. -/
theorem entry_bias2 (c : Dev nD) : V5 m ρ c main_v22 = val_main_v56 (F := Ideal) (m ((c : Thread nD τ).loc main_arg6)) := by
  show StableHlo.after hostOps0_4 (StableHlo.after hostOps0_3 (StableHlo.after hostOps0_2 (StableHlo.after hostOps0_1
    (StableHlo.after hostOps0 (W0 m ρ c))))) (Proc.devRef .tc main_v22) = _
  host_read
  show shapeCast (⟨2, ![1, 40]⟩ : Shape) (m ((c : Thread nD τ).loc main_arg6)) _ = _
  exact shapeCast_row_eq_broadcastInDim _ _ Cert.ReferenceIdeal.Gen.bcast_S40_S1x40_1

/-! ## Across the first region -/

theorem reg0_keeps_main_arg1 (c : Dev nD) : V6 m ρ c main_arg1 = V5 m ρ c main_arg1 := W6_of_ne m ρ c main_arg1 (by decide)
theorem reg0_keeps_main_arg2 (c : Dev nD) : V6 m ρ c main_arg2 = V5 m ρ c main_arg2 := W6_of_ne m ρ c main_arg2 (by decide)
theorem reg0_keeps_main_arg5 (c : Dev nD) : V6 m ρ c main_arg5 = V5 m ρ c main_arg5 := W6_of_ne m ρ c main_arg5 (by decide)
theorem reg0_keeps_main_v20 (c : Dev nD) : V6 m ρ c main_v20 = V5 m ρ c main_v20 := W6_of_ne m ρ c main_v20 (by decide)
theorem reg0_keeps_main_v21 (c : Dev nD) : V6 m ρ c main_v21 = V5 m ρ c main_v21 := W6_of_ne m ρ c main_v21 (by decide)
theorem reg0_keeps_main_v22 (c : Dev nD) : V6 m ρ c main_v22 = V5 m ρ c main_v22 := W6_of_ne m ρ c main_v22 (by decide)
/-- An input window's array is left as entered. -/
theorem reg0_keeps_main_v19 (c : Dev nD) : V6 m ρ c main_v19 = V5 m ρ c main_v19 :=
  (W6_arr m ρ c 1).trans (((dat0 (V5 m ρ) c).arrAt_in 1 rfl _).trans (A_eq0 (V5 m ρ) c 1))

/-- The first region's output: the row-scaled product. -/
theorem reg0_out (c : Dev nD) :
    V6 m ρ c main_v23 = scaledProduct (m ((c : Thread nD τ).loc main_arg0)) (val_main_v19 (F := Ideal) (m ((c : Thread nD τ).loc main_arg1))) (m ((c : Thread nD τ).loc main_arg3)) := by
  refine (W6_arr m ρ c 3).trans ((Dense1.final (V5 m ρ) c).trans ?_)
  rw [entry_arg0, entry_src_col, entry_arg3]

/-! ## The first edge step, and across the second region -/

theorem edge1_keeps_main_arg1 (c : Dev nD) : V7 m ρ c main_arg1 = V6 m ρ c main_arg1 := by
  show StableHlo.after hostOps1 (W6 m ρ c) (Proc.devRef .tc main_arg1) = _
  host_read
theorem edge1_keeps_main_arg2 (c : Dev nD) : V7 m ρ c main_arg2 = V6 m ρ c main_arg2 := by
  show StableHlo.after hostOps1 (W6 m ρ c) (Proc.devRef .tc main_arg2) = _
  host_read
theorem edge1_keeps_main_arg5 (c : Dev nD) : V7 m ρ c main_arg5 = V6 m ρ c main_arg5 := by
  show StableHlo.after hostOps1 (W6 m ρ c) (Proc.devRef .tc main_arg5) = _
  host_read
theorem edge1_keeps_main_v19 (c : Dev nD) : V7 m ρ c main_v19 = V6 m ρ c main_v19 := by
  show StableHlo.after hostOps1 (W6 m ρ c) (Proc.devRef .tc main_v19) = _
  host_read
theorem edge1_keeps_main_v20 (c : Dev nD) : V7 m ρ c main_v20 = V6 m ρ c main_v20 := by
  show StableHlo.after hostOps1 (W6 m ρ c) (Proc.devRef .tc main_v20) = _
  host_read
theorem edge1_keeps_main_v21 (c : Dev nD) : V7 m ρ c main_v21 = V6 m ρ c main_v21 := by
  show StableHlo.after hostOps1 (W6 m ρ c) (Proc.devRef .tc main_v21) = _
  host_read
theorem edge1_keeps_main_v22 (c : Dev nD) : V7 m ρ c main_v22 = V6 m ρ c main_v22 := by
  show StableHlo.after hostOps1 (W6 m ρ c) (Proc.devRef .tc main_v22) = _
  host_read

/-- The first edge step of the first region's output. -/
theorem edge1_out (c : Dev nD) :
    V7 m ρ c main_v33 = edgeSum128 (V6 m ρ c main_v23) (V6 m ρ c main_arg1) (V6 m ρ c main_arg2) := by
  show StableHlo.after hostOps1 (W6 m ρ c) (Proc.devRef .tc main_v33) = _
  host_read
  rfl

theorem reg1_keeps_main_arg1 (c : Dev nD) : V8 m ρ c main_arg1 = V7 m ρ c main_arg1 := W8_of_ne m ρ c main_arg1 (by decide)
theorem reg1_keeps_main_arg2 (c : Dev nD) : V8 m ρ c main_arg2 = V7 m ρ c main_arg2 := W8_of_ne m ρ c main_arg2 (by decide)
theorem reg1_keeps_main_v22 (c : Dev nD) : V8 m ρ c main_v22 = V7 m ρ c main_v22 := W8_of_ne m ρ c main_v22 (by decide)
/-- An input window's array is left as entered. -/
theorem reg1_keeps_main_v20 (c : Dev nD) : V8 m ρ c main_v20 = V7 m ρ c main_v20 :=
  (W8_arr m ρ c 1).trans (((dat1 (V7 m ρ) c).arrAt_in 1 rfl _).trans (A_eq1 (V7 m ρ) c 1))

/-- The second region's output: the fused affine step and product. -/
theorem reg1_out (c : Dev nD) :
    V8 m ρ c main_v34
      = affineScaledProduct (V7 m ρ c main_v33) (V7 m ρ c main_v20) (V7 m ρ c main_v19) (V7 m ρ c main_v21) (V7 m ρ c main_arg5) :=
  (W8_arr m ρ c 5).trans (Dense2.final (V7 m ρ) c)

/-! ## The second edge step, and the third region -/

theorem edge2_keeps_main_v20 (c : Dev nD) : V9 m ρ c main_v20 = V8 m ρ c main_v20 := by
  show StableHlo.after hostOps2 (W8 m ρ c) (Proc.devRef .tc main_v20) = _
  host_read
theorem edge2_keeps_main_v22 (c : Dev nD) : V9 m ρ c main_v22 = V8 m ρ c main_v22 := by
  show StableHlo.after hostOps2 (W8 m ρ c) (Proc.devRef .tc main_v22) = _
  host_read

/-- The second edge step of the second region's output. -/
theorem edge2_out (c : Dev nD) :
    V9 m ρ c main_v44 = edgeSum40 (V8 m ρ c main_v34) (V8 m ρ c main_arg1) (V8 m ρ c main_arg2) := by
  show StableHlo.after hostOps2 (W8 m ρ c) (Proc.devRef .tc main_v44) = _
  host_read
  rfl

/-- The third region's output: the last affine step and the log-softmax. -/
theorem reg2_out (c : Dev nD) :
    V10 m ρ c main_v45 = affineLogSoftmax (V9 m ρ c main_v44) (V9 m ρ c main_v20) (V9 m ρ c main_v22) :=
  (W10_arr m ρ c 3).trans (Dense3.final (V9 m ρ) c)

/-! ## The result -/

/-- The two programs hold the same factor columns twice under different names. -/
theorem src_col_again (x1 : (⟨Cert.ReferenceIdeal.S1600000, .i32⟩ : BufTy).Contents (Elt Ideal)) :
    val_main_v39 (F := Ideal) x1 = val_main_v19 (F := Ideal) x1 := rfl
theorem dst_col_again (x2 : (⟨Cert.ReferenceIdeal.S1600000, .i32⟩ : BufTy).Contents (Elt Ideal)) :
    val_main_v53 (F := Ideal) x2 = val_main_v33 (F := Ideal) x2 := rfl

/-- The result array at the last boundary is the network of the launch arguments. -/
theorem result (c : Dev nD) :
    W10 m ρ c (Proc.devRef .tc main_v45)
      = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show V10 m ρ c main_v45 = _
  rw [reg2_out, edge2_out, edge2_keeps_main_v20, edge2_keeps_main_v22, reg1_out, reg1_keeps_main_arg1, reg1_keeps_main_arg2,
    reg1_keeps_main_v20, reg1_keeps_main_v22, edge1_out, edge1_keeps_main_arg1, edge1_keeps_main_arg2, edge1_keeps_main_arg5,
    edge1_keeps_main_v19, edge1_keeps_main_v20, edge1_keeps_main_v21, edge1_keeps_main_v22, reg0_out, reg0_keeps_main_arg1,
    reg0_keeps_main_arg2, reg0_keeps_main_arg5, reg0_keeps_main_v19, reg0_keeps_main_v20, reg0_keeps_main_v21,
    reg0_keeps_main_v22, entry_arg1, entry_arg2, entry_arg5, entry_src_col, entry_dst_col, entry_bias1, entry_bias2]
  unfold network
  rw [src_col_again, dst_col_again]

end Cert.KernelIdeal.Fold

end
-- ==== Proof.RefStaged.lean ====
/-
  The reference program's run, read stage by stage.

  @main is a straight line of 93 host operations. Run from any memory, every buffer ends at the fold of the operations'
  results over its launch contents. The fold over a concatenation is the fold over the second list from the fold over
  the first, so the line is cut into eight consecutive pieces, each ending at one of the arrays the next piece reads: the
  two per-node factors, the first matrix product, the first message-passed array, the second matrix product, the second
  message-passed array, the logits, the shifted logits, the result. For each piece, from ANY contents W of the buffers
  on entry, the one buffer the next piece reads holds that stage's value as a function of @main's arguments, provided
  the buffers the piece reads hold the earlier stages' values of the same arguments; and a buffer the piece does not
  write keeps W's contents.
  Chained from the launch contents these give the result buffer as the last stage's value of the arguments' launch
  contents. The arguments themselves are written by no operation.
-/
import proofs.«110680_j63376537420316_1_alg».proof.Proof.RefRead
import Idealize.ShloMosaic.Lib.StableHlo.Run

noncomputable section

namespace Cert.ReferenceIdeal.Staged

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The contents after two lines run one after the other are the second line's from the first line's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Contents moved to a buffer's own type and back are the contents. -/
theorem of_to {T : BufTy} (x : TRef sig T) (v : T.Contents (Elt F)) : x.ofBuf (x.toBuf v) = v := by
  obtain ⟨r, rfl, h2, h3⟩ := x
  rfl

/-! ## The eight pieces of the line -/

/-- The first 32 operations: the two degree counts (a scatter-add of ones at the sources, at the destinations) and the two per-node factors made of them, `main_v12` (out-degree) and `main_v18` (in-degree). -/
abbrev opsA : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg1 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    unary main_arg2 main_v5 (broadcastInDim S1600000x1 ![0] bcast_S1600000_S1600000x1_0 : (⟨S1600000, .i32⟩ : BufTy).Contents (Elt F) → (⟨S1600000x1, .i32⟩ : BufTy).Contents (Elt F)),
    ternary main_v4 main_v5 main_v0 main_v6 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_2 (constant S_ .f32 0x00000000#32),
    unary main_cst_2 main_v7 (broadcastInDim S50000 ![] bcast_S_S50000 : (⟨S_, .f32⟩ : BufTy).Contents (Elt F) → (⟨S50000, .f32⟩ : BufTy).Contents (Elt F)),
    binary main_v3 main_v7 main_v8 (cmpf .ogt : (⟨S50000, .f32⟩ : BufTy).Contents (Elt F) → (⟨S50000, .f32⟩ : BufTy).Contents (Elt F) → (⟨S50000, .i1⟩ : BufTy).Contents (Elt F)),
    nullary main_cst_3 (constant S_ .f32 0x3F800000#32),
    unary main_cst_3 main_v9 (broadcastInDim S50000 ![] bcast_S_S50000 : (⟨S_, .f32⟩ : BufTy).Contents (Elt F) → (⟨S50000, .f32⟩ : BufTy).Contents (Elt F)),
    binary main_v3 main_v9 main_v10 (maximumf : (⟨S50000, .f32⟩ : BufTy).Contents (Elt F) → (⟨S50000, .f32⟩ : BufTy).Contents (Elt F) → (⟨S50000, .f32⟩ : BufTy).Contents (Elt F)),
    unary main_v10 main_v11 (Host.rsqrt : (⟨S50000, .f32⟩ : BufTy).Contents (Elt F) → (⟨S50000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v8) (TRef.of (T := ⟨S50000, .f32⟩) main_v11) (TRef.of (T := ⟨S50000, .f32⟩) main_call0_v1) (TRef.of (T := ⟨S50000, .f32⟩) main_v12) select,
    nullary main_cst_5 (constant S_ .f32 0x00000000#32),
    unary main_cst_5 main_v13 (broadcastInDim S50000 ![] bcast_S_S50000 : (⟨S_, .f32⟩ : BufTy).Contents (Elt F) → (⟨S50000, .f32⟩ : BufTy).Contents (Elt F)),
    binary main_v6 main_v13 main_v14 (cmpf .ogt : (⟨S50000, .f32⟩ : BufTy).Contents (Elt F) → (⟨S50000, .f32⟩ : BufTy).Contents (Elt F) → (⟨S50000, .i1⟩ : BufTy).Contents (Elt F)),
    nullary main_cst_6 (constant S_ .f32 0x3F800000#32),
    unary main_cst_6 main_v15 (broadcastInDim S50000 ![] bcast_S_S50000 : (⟨S_, .f32⟩ : BufTy).Contents (Elt F) → (⟨S50000, .f32⟩ : BufTy).Contents (Elt F)),
    binary main_v6 main_v15 main_v16 (maximumf : (⟨S50000, .f32⟩ : BufTy).Contents (Elt F) → (⟨S50000, .f32⟩ : BufTy).Contents (Elt F) → (⟨S50000, .f32⟩ : BufTy).Contents (Elt F)),
    unary main_v16 main_v17 (Host.rsqrt : (⟨S50000, .f32⟩ : BufTy).Contents (Elt F) → (⟨S50000, .f32⟩ : BufTy).Contents (Elt F)),
    nullary main_cst_7 (constant S_ .f32 0x00000000#32),
    TRef.unary (TRef.of (T := ⟨S_, .f32⟩) main_cst_7) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v14) (TRef.of (T := ⟨S50000, .f32⟩) main_v17) (TRef.of (T := ⟨S50000, .f32⟩) main_call1_v1) (TRef.of (T := ⟨S50000, .f32⟩) main_v18) select ]

/-- The next 4: the out-degree factor as a column, broadcast, times the input, and the first matrix product `main_v22`. -/
abbrev opsB : List (HloOp τ sig (Elt F)) :=
  [ unary main_v12 main_v19 (broadcastInDim S50000x1 ![0] bcast_S50000_S50000x1_0 : (⟨S50000, .f32⟩ : BufTy).Contents (Elt F) → (⟨S50000x1, .f32⟩ : BufTy).Contents (Elt F)),
    unary main_v19 main_v20 (broadcastInDim S50000x256 ![0, 1] bcast_S50000x1_S50000x256_0_1 : (⟨S50000x1, .f32⟩ : BufTy).Contents (Elt F) → (⟨S50000x256, .f32⟩ : BufTy).Contents (Elt F)),
    binary main_arg0 main_v20 main_v21 (mulf : (⟨S50000x256, .f32⟩ : BufTy).Contents (Elt F) → (⟨S50000x256, .f32⟩ : BufTy).Contents (Elt F) → (⟨S50000x256, .f32⟩ : BufTy).Contents (Elt F)),
    binary main_v21 main_arg3 main_v22 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ]

/-- The next 13: the source indices wrapped into range, the rows of the first product gathered at them, and their scatter-add at the destinations `main_v32`. -/
abbrev opsC : List (HloOp τ sig (Elt F)) :=
  [ nullary main_c (constantI S_ 32 0#32),
    unary main_c main_v23 (broadcastInDim S1600000 ![] bcast_S_S1600000 : (⟨S_, .i32⟩ : BufTy).Contents (Elt F) → (⟨S1600000, .i32⟩ : BufTy).Contents (Elt F)),
    binary main_arg1 main_v23 main_v24 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 50000#32),
    unary main_c_8 main_v25 (broadcastInDim S1600000 ![] bcast_S_S1600000 : (⟨S_, .i32⟩ : BufTy).Contents (Elt F) → (⟨S1600000, .i32⟩ : BufTy).Contents (Elt F)),
    binary main_arg1 main_v25 main_v26 (addi : (⟨S1600000, .i32⟩ : BufTy).Contents (Elt F) → (⟨S1600000, .i32⟩ : BufTy).Contents (Elt F) → (⟨S1600000, .i32⟩ : BufTy).Contents (Elt F)),
    ternary main_v24 main_v26 main_arg1 main_v27 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v27 main_v28 (broadcastInDim S1600000x1 ![0] bcast_S1600000_S1600000x1_0 : (⟨S1600000, .i32⟩ : BufTy).Contents (Elt F) → (⟨S1600000x1, .i32⟩ : BufTy).Contents (Elt F)),
    binary main_v22 main_v28 main_v29 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    nullary main_cst_9 (constant S_ .f32 0x00000000#32),
    unary main_cst_9 main_v30 (broadcastInDim S50000x128 ![] bcast_S_S50000x128 : (⟨S_, .f32⟩ : BufTy).Contents (Elt F) → (⟨S50000x128, .f32⟩ : BufTy).Contents (Elt F)),
    unary main_arg2 main_v31 (broadcastInDim S1600000x1 ![0] bcast_S1600000_S1600000x1_0 : (⟨S1600000, .i32⟩ : BufTy).Contents (Elt F) → (⟨S1600000x1, .i32⟩ : BufTy).Contents (Elt F)),
    ternary main_v30 main_v31 main_v29 main_v32 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)) ]

/-- The next 10: the in-degree scaling, the first bias, the out-degree scaling, and the second matrix product `main_v42`. -/
abbrev opsD : List (HloOp τ sig (Elt F)) :=
  [ unary main_v18 main_v33 (broadcastInDim S50000x1 ![0] bcast_S50000_S50000x1_0 : (⟨S50000, .f32⟩ : BufTy).Contents (Elt F) → (⟨S50000x1, .f32⟩ : BufTy).Contents (Elt F)),
    unary main_v33 main_v34 (broadcastInDim S50000x128 ![0, 1] bcast_S50000x1_S50000x128_0_1 : (⟨S50000x1, .f32⟩ : BufTy).Contents (Elt F) → (⟨S50000x128, .f32⟩ : BufTy).Contents (Elt F)),
    binary main_v32 main_v34 main_v35 (mulf : (⟨S50000x128, .f32⟩ : BufTy).Contents (Elt F) → (⟨S50000x128, .f32⟩ : BufTy).Contents (Elt F) → (⟨S50000x128, .f32⟩ : BufTy).Contents (Elt F)),
    unary main_arg4 main_v36 (broadcastInDim S1x128 ![1] bcast_S128_S1x128_1 : (⟨S128, .f32⟩ : BufTy).Contents (Elt F) → (⟨S1x128, .f32⟩ : BufTy).Contents (Elt F)),
    unary main_v36 main_v37 (broadcastInDim S50000x128 ![0, 1] bcast_S1x128_S50000x128_0_1 : (⟨S1x128, .f32⟩ : BufTy).Contents (Elt F) → (⟨S50000x128, .f32⟩ : BufTy).Contents (Elt F)),
    binary main_v35 main_v37 main_v38 (addf : (⟨S50000x128, .f32⟩ : BufTy).Contents (Elt F) → (⟨S50000x128, .f32⟩ : BufTy).Contents (Elt F) → (⟨S50000x128, .f32⟩ : BufTy).Contents (Elt F)),
    unary main_v12 main_v39 (broadcastInDim S50000x1 ![0] bcast_S50000_S50000x1_0 : (⟨S50000, .f32⟩ : BufTy).Contents (Elt F) → (⟨S50000x1, .f32⟩ : BufTy).Contents (Elt F)),
    unary main_v39 main_v40 (broadcastInDim S50000x128 ![0, 1] bcast_S50000x1_S50000x128_0_1 : (⟨S50000x1, .f32⟩ : BufTy).Contents (Elt F) → (⟨S50000x128, .f32⟩ : BufTy).Contents (Elt F)),
    binary main_v38 main_v40 main_v41 (mulf : (⟨S50000x128, .f32⟩ : BufTy).Contents (Elt F) → (⟨S50000x128, .f32⟩ : BufTy).Contents (Elt F) → (⟨S50000x128, .f32⟩ : BufTy).Contents (Elt F)),
    binary main_v41 main_arg5 main_v42 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)) ]

/-- The next 13: the second gather at the sources and scatter-add at the destinations `main_v52`. -/
abbrev opsE : List (HloOp τ sig (Elt F)) :=
  [ nullary main_c_10 (constantI S_ 32 0#32),
    unary main_c_10 main_v43 (broadcastInDim S1600000 ![] bcast_S_S1600000 : (⟨S_, .i32⟩ : BufTy).Contents (Elt F) → (⟨S1600000, .i32⟩ : BufTy).Contents (Elt F)),
    binary main_arg1 main_v43 main_v44 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 50000#32),
    unary main_c_11 main_v45 (broadcastInDim S1600000 ![] bcast_S_S1600000 : (⟨S_, .i32⟩ : BufTy).Contents (Elt F) → (⟨S1600000, .i32⟩ : BufTy).Contents (Elt F)),
    binary main_arg1 main_v45 main_v46 (addi : (⟨S1600000, .i32⟩ : BufTy).Contents (Elt F) → (⟨S1600000, .i32⟩ : BufTy).Contents (Elt F) → (⟨S1600000, .i32⟩ : BufTy).Contents (Elt F)),
    ternary main_v44 main_v46 main_arg1 main_v47 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v47 main_v48 (broadcastInDim S1600000x1 ![0] bcast_S1600000_S1600000x1_0 : (⟨S1600000, .i32⟩ : BufTy).Contents (Elt F) → (⟨S1600000x1, .i32⟩ : BufTy).Contents (Elt F)),
    binary main_v42 main_v48 main_v49 ((fun x i => Host.gather gather_S50000x40_S1600000x1_S1600000x40_1_0_n_n_0_1_140 x i) : (⟨S50000x40, .f32⟩ : BufTy).Contents (Elt F) → (⟨S1600000x1, .i32⟩ : BufTy).Contents (Elt F) → (⟨S1600000x40, .f32⟩ : BufTy).Contents (Elt F)),
    nullary main_cst_12 (constant S_ .f32 0x00000000#32),
    unary main_cst_12 main_v50 (broadcastInDim S50000x40 ![] bcast_S_S50000x40 : (⟨S_, .f32⟩ : BufTy).Contents (Elt F) → (⟨S50000x40, .f32⟩ : BufTy).Contents (Elt F)),
    unary main_arg2 main_v51 (broadcastInDim S1600000x1 ![0] bcast_S1600000_S1600000x1_0 : (⟨S1600000, .i32⟩ : BufTy).Contents (Elt F) → (⟨S1600000x1, .i32⟩ : BufTy).Contents (Elt F)),
    ternary main_v50 main_v51 main_v49 main_v52 ((fun x i u => Host.scatterAdd scatter_S50000x40_S1600000x1_S1600000x40_1_0_0_1 x i u) : (⟨S50000x40, .f32⟩ : BufTy).Contents (Elt F) → (⟨S1600000x1, .i32⟩ : BufTy).Contents (Elt F) → (⟨S1600000x40, .f32⟩ : BufTy).Contents (Elt F) → (⟨S50000x40, .f32⟩ : BufTy).Contents (Elt F)) ]

/-- The next 6: the in-degree scaling and the second bias, the logits `main_v58`. -/
abbrev opsG : List (HloOp τ sig (Elt F)) :=
  [ unary main_v18 main_v53 (broadcastInDim S50000x1 ![0] bcast_S50000_S50000x1_0 : (⟨S50000, .f32⟩ : BufTy).Contents (Elt F) → (⟨S50000x1, .f32⟩ : BufTy).Contents (Elt F)),
    unary main_v53 main_v54 (broadcastInDim S50000x40 ![0, 1] bcast_S50000x1_S50000x40_0_1 : (⟨S50000x1, .f32⟩ : BufTy).Contents (Elt F) → (⟨S50000x40, .f32⟩ : BufTy).Contents (Elt F)),
    binary main_v52 main_v54 main_v55 (mulf : (⟨S50000x40, .f32⟩ : BufTy).Contents (Elt F) → (⟨S50000x40, .f32⟩ : BufTy).Contents (Elt F) → (⟨S50000x40, .f32⟩ : BufTy).Contents (Elt F)),
    unary main_arg6 main_v56 (broadcastInDim S1x40 ![1] bcast_S40_S1x40_1 : (⟨S40, .f32⟩ : BufTy).Contents (Elt F) → (⟨S1x40, .f32⟩ : BufTy).Contents (Elt F)),
    unary main_v56 main_v57 (broadcastInDim S50000x40 ![0, 1] bcast_S1x40_S50000x40_0_1 : (⟨S1x40, .f32⟩ : BufTy).Contents (Elt F) → (⟨S50000x40, .f32⟩ : BufTy).Contents (Elt F)),
    binary main_v55 main_v57 main_v58 (addf : (⟨S50000x40, .f32⟩ : BufTy).Contents (Elt F) → (⟨S50000x40, .f32⟩ : BufTy).Contents (Elt F) → (⟨S50000x40, .f32⟩ : BufTy).Contents (Elt F)) ]

/-- The next 8, the first half of the row-wise log-softmax: the row maximum (a max-reduction from −∞, then the maximum with −∞ once more) and the shifted logits `main_call2_v5`. -/
abbrev opsH : List (HloOp τ sig (Elt F)) :=
  [ TRef.nullary (TRef.of (T := ⟨S_, .f32⟩) main_call2_cst) (constant S_ .f32 0xFF800000#32),
    TRef.binary (TRef.of (T := ⟨S50000x40, .f32⟩) main_v58) (TRef.of (T := ⟨S_, .f32⟩) main_call2_cst) (TRef.of (T := ⟨S50000, .f32⟩) main_call2_v0) (fun x v => Host.reduce FloatOps.maximumf x v reducesTo_S50000x40_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x40, .f32⟩) main_call2_v4) (broadcastInDim S50000x40 ![0, 1] bcast_S50000x1_S50000x40_0_1),
    TRef.binary (TRef.of (T := ⟨S50000x40, .f32⟩) main_v58) (TRef.of (T := ⟨S50000x40, .f32⟩) main_call2_v4) (TRef.of (T := ⟨S50000x40, .f32⟩) main_call2_v5) subf ]

/-- The last 7, the second half: the exponentials, their row sum from 0, its logarithm, and the result `main_v59`. -/
abbrev opsK : List (HloOp τ sig (Elt F)) :=
  [ TRef.unary (TRef.of (T := ⟨S50000x40, .f32⟩) main_call2_v5) (TRef.of (T := ⟨S50000x40, .f32⟩) main_call2_v6) Host.exp,
    TRef.nullary (TRef.of (T := ⟨S_, .f32⟩) main_call2_cst_1) (constant S_ .f32 0x00000000#32),
    TRef.binary (TRef.of (T := ⟨S50000x40, .f32⟩) main_call2_v6) (TRef.of (T := ⟨S_, .f32⟩) main_call2_cst_1) (TRef.of (T := ⟨S50000, .f32⟩) main_call2_v7) (fun x v => Host.reduceAdd x v reducesTo_S50000x40_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x40, .f32⟩) main_call2_v10) (broadcastInDim S50000x40 ![0, 1] bcast_S50000x1_S50000x40_0_1),
    TRef.binary (TRef.of (T := ⟨S50000x40, .f32⟩) main_call2_v5) (TRef.of (T := ⟨S50000x40, .f32⟩) main_call2_v10) (TRef.of (T := ⟨S50000x40, .f32⟩) main_v59) subf ]

/-- The line is the eight pieces in order. -/
theorem ops_split : (ops : List (HloOp τ sig (Elt F)))
    = opsA ++ (opsB ++ (opsC ++ (opsD ++ (opsE ++ (opsG ++ (opsH ++ opsK)))))) := rfl

/-! ## What each piece leaves, from any contents on entry -/

/-- After the first piece the out-degree factor's buffer holds its stage's value of the source indices … -/
theorem A_v12 (W : Valuation τ sig (Elt F)) (x1 : (⟨S1600000, .i32⟩ : BufTy).Contents (Elt F)) (h1 : W (Proc.devRef .tc main_arg1) = x1) :
    after opsA W (Proc.devRef .tc main_v12) = val_main_v12 (F := F) x1 := by
  subst h1
  dsimp only [opsA]; after_results_simp <;> rfl
/-- … and the in-degree factor's buffer its stage's value of the destination indices. -/
theorem A_v18 (W : Valuation τ sig (Elt F)) (x2 : (⟨S1600000, .i32⟩ : BufTy).Contents (Elt F)) (h2 : W (Proc.devRef .tc main_arg2) = x2) :
    after opsA W (Proc.devRef .tc main_v18) = val_main_v18 (F := F) x2 := by
  subst h2
  dsimp only [opsA]; after_results_simp <;> rfl
/-- The first piece writes none of the arguments. -/
theorem A_arg0 (W : Valuation τ sig (Elt F)) : after opsA W (Proc.devRef .tc main_arg0) = W (Proc.devRef .tc main_arg0) := by
  dsimp only [opsA]; after_results_simp
theorem A_arg1 (W : Valuation τ sig (Elt F)) : after opsA W (Proc.devRef .tc main_arg1) = W (Proc.devRef .tc main_arg1) := by
  dsimp only [opsA]; after_results_simp
theorem A_arg2 (W : Valuation τ sig (Elt F)) : after opsA W (Proc.devRef .tc main_arg2) = W (Proc.devRef .tc main_arg2) := by
  dsimp only [opsA]; after_results_simp
theorem A_arg3 (W : Valuation τ sig (Elt F)) : after opsA W (Proc.devRef .tc main_arg3) = W (Proc.devRef .tc main_arg3) := by
  dsimp only [opsA]; after_results_simp
theorem A_arg4 (W : Valuation τ sig (Elt F)) : after opsA W (Proc.devRef .tc main_arg4) = W (Proc.devRef .tc main_arg4) := by
  dsimp only [opsA]; after_results_simp
theorem A_arg5 (W : Valuation τ sig (Elt F)) : after opsA W (Proc.devRef .tc main_arg5) = W (Proc.devRef .tc main_arg5) := by
  dsimp only [opsA]; after_results_simp
theorem A_arg6 (W : Valuation τ sig (Elt F)) : after opsA W (Proc.devRef .tc main_arg6) = W (Proc.devRef .tc main_arg6) := by
  dsimp only [opsA]; after_results_simp

/-- After the second piece the first product's buffer holds its stage's value. -/
theorem B_v22 (W : Valuation τ sig (Elt F)) (x0 : (⟨S50000x256, .f32⟩ : BufTy).Contents (Elt F)) (x1 : (⟨S1600000, .i32⟩ : BufTy).Contents (Elt F)) (x3 : (⟨S256x128, .f32⟩ : BufTy).Contents (Elt F))
    (h0 : W (Proc.devRef .tc main_arg0) = x0) (h3 : W (Proc.devRef .tc main_arg3) = x3) (h12 : W (Proc.devRef .tc main_v12) = val_main_v12 (F := F) x1) :
    after opsB W (Proc.devRef .tc main_v22) = val_main_v22 (F := F) x0 x1 x3 := by
  subst h0 h3
  dsimp only [opsB]; after_results_simp
  rw [h12]; rfl
/-- The second piece writes none of the buffers read later. -/
theorem B_arg1 (W : Valuation τ sig (Elt F)) : after opsB W (Proc.devRef .tc main_arg1) = W (Proc.devRef .tc main_arg1) := by
  dsimp only [opsB]; after_results_simp
theorem B_arg2 (W : Valuation τ sig (Elt F)) : after opsB W (Proc.devRef .tc main_arg2) = W (Proc.devRef .tc main_arg2) := by
  dsimp only [opsB]; after_results_simp
theorem B_arg4 (W : Valuation τ sig (Elt F)) : after opsB W (Proc.devRef .tc main_arg4) = W (Proc.devRef .tc main_arg4) := by
  dsimp only [opsB]; after_results_simp
theorem B_arg5 (W : Valuation τ sig (Elt F)) : after opsB W (Proc.devRef .tc main_arg5) = W (Proc.devRef .tc main_arg5) := by
  dsimp only [opsB]; after_results_simp
theorem B_arg6 (W : Valuation τ sig (Elt F)) : after opsB W (Proc.devRef .tc main_arg6) = W (Proc.devRef .tc main_arg6) := by
  dsimp only [opsB]; after_results_simp
theorem B_v12 (W : Valuation τ sig (Elt F)) : after opsB W (Proc.devRef .tc main_v12) = W (Proc.devRef .tc main_v12) := by
  dsimp only [opsB]; after_results_simp
theorem B_v18 (W : Valuation τ sig (Elt F)) : after opsB W (Proc.devRef .tc main_v18) = W (Proc.devRef .tc main_v18) := by
  dsimp only [opsB]; after_results_simp

/-- After the third piece the first message-passed array's buffer holds its stage's value. -/
theorem C_v32 (W : Valuation τ sig (Elt F)) (x0 : (⟨S50000x256, .f32⟩ : BufTy).Contents (Elt F)) (x1 : (⟨S1600000, .i32⟩ : BufTy).Contents (Elt F)) (x2 : (⟨S1600000, .i32⟩ : BufTy).Contents (Elt F)) (x3 : (⟨S256x128, .f32⟩ : BufTy).Contents (Elt F))
    (h1 : W (Proc.devRef .tc main_arg1) = x1) (h2 : W (Proc.devRef .tc main_arg2) = x2) (h22 : W (Proc.devRef .tc main_v22) = val_main_v22 (F := F) x0 x1 x3) :
    after opsC W (Proc.devRef .tc main_v32) = val_main_v32 (F := F) x0 x1 x2 x3 := by
  subst h1 h2
  dsimp only [opsC]; after_results_simp
  rw [h22]; rfl
/-- The third piece writes none of the buffers read later. -/
theorem C_arg1 (W : Valuation τ sig (Elt F)) : after opsC W (Proc.devRef .tc main_arg1) = W (Proc.devRef .tc main_arg1) := by
  dsimp only [opsC]; after_results_simp
theorem C_arg2 (W : Valuation τ sig (Elt F)) : after opsC W (Proc.devRef .tc main_arg2) = W (Proc.devRef .tc main_arg2) := by
  dsimp only [opsC]; after_results_simp
theorem C_arg4 (W : Valuation τ sig (Elt F)) : after opsC W (Proc.devRef .tc main_arg4) = W (Proc.devRef .tc main_arg4) := by
  dsimp only [opsC]; after_results_simp
theorem C_arg5 (W : Valuation τ sig (Elt F)) : after opsC W (Proc.devRef .tc main_arg5) = W (Proc.devRef .tc main_arg5) := by
  dsimp only [opsC]; after_results_simp
theorem C_arg6 (W : Valuation τ sig (Elt F)) : after opsC W (Proc.devRef .tc main_arg6) = W (Proc.devRef .tc main_arg6) := by
  dsimp only [opsC]; after_results_simp
theorem C_v12 (W : Valuation τ sig (Elt F)) : after opsC W (Proc.devRef .tc main_v12) = W (Proc.devRef .tc main_v12) := by
  dsimp only [opsC]; after_results_simp
theorem C_v18 (W : Valuation τ sig (Elt F)) : after opsC W (Proc.devRef .tc main_v18) = W (Proc.devRef .tc main_v18) := by
  dsimp only [opsC]; after_results_simp

/-- After the fourth piece the second product's buffer holds its stage's value. -/
theorem D_v42 (W : Valuation τ sig (Elt F)) (x0 : (⟨S50000x256, .f32⟩ : BufTy).Contents (Elt F)) (x1 : (⟨S1600000, .i32⟩ : BufTy).Contents (Elt F)) (x2 : (⟨S1600000, .i32⟩ : BufTy).Contents (Elt F)) (x3 : (⟨S256x128, .f32⟩ : BufTy).Contents (Elt F)) (x4 : (⟨S128, .f32⟩ : BufTy).Contents (Elt F)) (x5 : (⟨S128x40, .f32⟩ : BufTy).Contents (Elt F))
    (h4 : W (Proc.devRef .tc main_arg4) = x4) (h5 : W (Proc.devRef .tc main_arg5) = x5) (h12 : W (Proc.devRef .tc main_v12) = val_main_v12 (F := F) x1)
    (h18 : W (Proc.devRef .tc main_v18) = val_main_v18 (F := F) x2) (h32 : W (Proc.devRef .tc main_v32) = val_main_v32 (F := F) x0 x1 x2 x3) :
    after opsD W (Proc.devRef .tc main_v42) = val_main_v42 (F := F) x0 x1 x2 x3 x4 x5 := by
  subst h4 h5
  dsimp only [opsD]; after_results_simp
  rw [h12, h18, h32]; rfl
/-- The fourth piece writes none of the buffers read later. -/
theorem D_arg1 (W : Valuation τ sig (Elt F)) : after opsD W (Proc.devRef .tc main_arg1) = W (Proc.devRef .tc main_arg1) := by
  dsimp only [opsD]; after_results_simp
theorem D_arg2 (W : Valuation τ sig (Elt F)) : after opsD W (Proc.devRef .tc main_arg2) = W (Proc.devRef .tc main_arg2) := by
  dsimp only [opsD]; after_results_simp
theorem D_arg6 (W : Valuation τ sig (Elt F)) : after opsD W (Proc.devRef .tc main_arg6) = W (Proc.devRef .tc main_arg6) := by
  dsimp only [opsD]; after_results_simp
theorem D_v18 (W : Valuation τ sig (Elt F)) : after opsD W (Proc.devRef .tc main_v18) = W (Proc.devRef .tc main_v18) := by
  dsimp only [opsD]; after_results_simp

/-- After the fifth piece the second message-passed array's buffer holds its stage's value. -/
theorem E_v52 (W : Valuation τ sig (Elt F)) (x0 : (⟨S50000x256, .f32⟩ : BufTy).Contents (Elt F)) (x1 : (⟨S1600000, .i32⟩ : BufTy).Contents (Elt F)) (x2 : (⟨S1600000, .i32⟩ : BufTy).Contents (Elt F)) (x3 : (⟨S256x128, .f32⟩ : BufTy).Contents (Elt F)) (x4 : (⟨S128, .f32⟩ : BufTy).Contents (Elt F)) (x5 : (⟨S128x40, .f32⟩ : BufTy).Contents (Elt F))
    (h1 : W (Proc.devRef .tc main_arg1) = x1) (h2 : W (Proc.devRef .tc main_arg2) = x2) (h42 : W (Proc.devRef .tc main_v42) = val_main_v42 (F := F) x0 x1 x2 x3 x4 x5) :
    after opsE W (Proc.devRef .tc main_v52) = val_main_v52 (F := F) x0 x1 x2 x3 x4 x5 := by
  subst h1 h2
  dsimp only [opsE]; after_results_simp
  rw [h42]; rfl
/-- The fifth piece writes none of the buffers read later. -/
theorem E_arg6 (W : Valuation τ sig (Elt F)) : after opsE W (Proc.devRef .tc main_arg6) = W (Proc.devRef .tc main_arg6) := by
  dsimp only [opsE]; after_results_simp
theorem E_v18 (W : Valuation τ sig (Elt F)) : after opsE W (Proc.devRef .tc main_v18) = W (Proc.devRef .tc main_v18) := by
  dsimp only [opsE]; after_results_simp

/-- After the sixth piece the logits' buffer holds its stage's value. -/
theorem G_v58 (W : Valuation τ sig (Elt F)) (x0 : (⟨S50000x256, .f32⟩ : BufTy).Contents (Elt F)) (x1 : (⟨S1600000, .i32⟩ : BufTy).Contents (Elt F)) (x2 : (⟨S1600000, .i32⟩ : BufTy).Contents (Elt F)) (x3 : (⟨S256x128, .f32⟩ : BufTy).Contents (Elt F)) (x4 : (⟨S128, .f32⟩ : BufTy).Contents (Elt F)) (x5 : (⟨S128x40, .f32⟩ : BufTy).Contents (Elt F)) (x6 : (⟨S40, .f32⟩ : BufTy).Contents (Elt F))
    (h6 : W (Proc.devRef .tc main_arg6) = x6) (h18 : W (Proc.devRef .tc main_v18) = val_main_v18 (F := F) x2)
    (h52 : W (Proc.devRef .tc main_v52) = val_main_v52 (F := F) x0 x1 x2 x3 x4 x5) :
    after opsG W (Proc.devRef .tc main_v58) = val_main_v58 (F := F) x0 x1 x2 x3 x4 x5 x6 := by
  subst h6
  dsimp only [opsG]; after_results_simp
  rw [h18, h52]; rfl

/-- After the seventh piece the shifted logits' buffer holds its stage's value. The moves of contents between a
    buffer's own type and its value's type are removed first, so that the max-reduction is met as written. -/
theorem H_v5 (W : Valuation τ sig (Elt F)) (x0 : (⟨S50000x256, .f32⟩ : BufTy).Contents (Elt F)) (x1 : (⟨S1600000, .i32⟩ : BufTy).Contents (Elt F)) (x2 : (⟨S1600000, .i32⟩ : BufTy).Contents (Elt F)) (x3 : (⟨S256x128, .f32⟩ : BufTy).Contents (Elt F)) (x4 : (⟨S128, .f32⟩ : BufTy).Contents (Elt F)) (x5 : (⟨S128x40, .f32⟩ : BufTy).Contents (Elt F)) (x6 : (⟨S40, .f32⟩ : BufTy).Contents (Elt F))
    (h58 : W (Proc.devRef .tc main_v58) = val_main_v58 (F := F) x0 x1 x2 x3 x4 x5 x6) :
    after opsH W (Proc.devRef .tc main_call2_v5) = val_main_call2_v5 (F := F) x0 x1 x2 x3 x4 x5 x6 := by
  dsimp only [opsH]; after_results_simp
  rw [h58]
  simp only [of_to]
  have k58 : (TRef.of (T := ⟨S50000x40, .f32⟩) main_v58).ofBuf (val_main_v58 (F := F) x0 x1 x2 x3 x4 x5 x6)
      = val_main_v58 (F := F) x0 x1 x2 x3 x4 x5 x6 := rfl
  rw [k58]
  rfl

/-- After the last piece the result's buffer holds the last stage's value. -/
theorem K_v59 (W : Valuation τ sig (Elt F)) (x0 : (⟨S50000x256, .f32⟩ : BufTy).Contents (Elt F)) (x1 : (⟨S1600000, .i32⟩ : BufTy).Contents (Elt F)) (x2 : (⟨S1600000, .i32⟩ : BufTy).Contents (Elt F)) (x3 : (⟨S256x128, .f32⟩ : BufTy).Contents (Elt F)) (x4 : (⟨S128, .f32⟩ : BufTy).Contents (Elt F)) (x5 : (⟨S128x40, .f32⟩ : BufTy).Contents (Elt F)) (x6 : (⟨S40, .f32⟩ : BufTy).Contents (Elt F))
    (h5 : W (Proc.devRef .tc main_call2_v5) = val_main_call2_v5 (F := F) x0 x1 x2 x3 x4 x5 x6) :
    after opsK W (Proc.devRef .tc main_v59) = val_main_v59 (F := F) x0 x1 x2 x3 x4 x5 x6 := by
  dsimp only [opsK]; after_results_simp
  rw [h5]; rfl

/-! ## The pieces chained from the launch contents -/

/-- After the whole line, from the launch contents, the result's buffer holds the last stage's value of the arguments'
    launch contents. -/
theorem after_v59 (m : (ℓ : Loc nD τ sig) → Buf (Elt F) ℓ) (c : Dev nD) :
    after ops (launchContents m c) (Proc.devRef .tc main_v59)
      = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [ops_split, after_append, after_append, after_append, after_append, after_append, after_append, after_append]
  have e0 : launchContents m c (Proc.devRef .tc main_arg0) = m ((c.tc : Thread nD τ).loc main_arg0) := rfl
  have e1 : launchContents m c (Proc.devRef .tc main_arg1) = m ((c.tc : Thread nD τ).loc main_arg1) := rfl
  have e2 : launchContents m c (Proc.devRef .tc main_arg2) = m ((c.tc : Thread nD τ).loc main_arg2) := rfl
  have e3 : launchContents m c (Proc.devRef .tc main_arg3) = m ((c.tc : Thread nD τ).loc main_arg3) := rfl
  have e4 : launchContents m c (Proc.devRef .tc main_arg4) = m ((c.tc : Thread nD τ).loc main_arg4) := rfl
  have e5 : launchContents m c (Proc.devRef .tc main_arg5) = m ((c.tc : Thread nD τ).loc main_arg5) := rfl
  have e6 : launchContents m c (Proc.devRef .tc main_arg6) = m ((c.tc : Thread nD τ).loc main_arg6) := rfl
  -- the two per-node factors
  have a12 := A_v12 (launchContents m c) _ e1
  have a18 := A_v18 (launchContents m c) _ e2
  have a_0 := (A_arg0 (launchContents m c)).trans e0
  have a_1 := (A_arg1 (launchContents m c)).trans e1
  have a_2 := (A_arg2 (launchContents m c)).trans e2
  have a_3 := (A_arg3 (launchContents m c)).trans e3
  have a_4 := (A_arg4 (launchContents m c)).trans e4
  have a_5 := (A_arg5 (launchContents m c)).trans e5
  have a_6 := (A_arg6 (launchContents m c)).trans e6
  -- the first matrix product
  have b22 := B_v22 (after opsA (launchContents m c)) _ _ _ a_0 a_3 a12
  have b_1 := (B_arg1 (after opsA (launchContents m c))).trans a_1
  have b_2 := (B_arg2 (after opsA (launchContents m c))).trans a_2
  have b_4 := (B_arg4 (after opsA (launchContents m c))).trans a_4
  have b_5 := (B_arg5 (after opsA (launchContents m c))).trans a_5
  have b_6 := (B_arg6 (after opsA (launchContents m c))).trans a_6
  have b12 := (B_v12 (after opsA (launchContents m c))).trans a12
  have b18 := (B_v18 (after opsA (launchContents m c))).trans a18
  -- the first message-passed array
  have c32 := C_v32 (after opsB (after opsA (launchContents m c))) _ _ _ _ b_1 b_2 b22
  have c_1 := (C_arg1 (after opsB (after opsA (launchContents m c)))).trans b_1
  have c_2 := (C_arg2 (after opsB (after opsA (launchContents m c)))).trans b_2
  have c_4 := (C_arg4 (after opsB (after opsA (launchContents m c)))).trans b_4
  have c_5 := (C_arg5 (after opsB (after opsA (launchContents m c)))).trans b_5
  have c_6 := (C_arg6 (after opsB (after opsA (launchContents m c)))).trans b_6
  have c12 := (C_v12 (after opsB (after opsA (launchContents m c)))).trans b12
  have c18 := (C_v18 (after opsB (after opsA (launchContents m c)))).trans b18
  -- the second matrix product
  have d42 := D_v42 (after opsC (after opsB (after opsA (launchContents m c)))) _ _ _ _ _ _ c_4 c_5 c12 c18 c32
  have d_1 := (D_arg1 (after opsC (after opsB (after opsA (launchContents m c))))).trans c_1
  have d_2 := (D_arg2 (after opsC (after opsB (after opsA (launchContents m c))))).trans c_2
  have d_6 := (D_arg6 (after opsC (after opsB (after opsA (launchContents m c))))).trans c_6
  have d18 := (D_v18 (after opsC (after opsB (after opsA (launchContents m c))))).trans c18
  -- the second message-passed array
  have e52 := E_v52 (after opsD (after opsC (after opsB (after opsA (launchContents m c))))) _ _ _ _ _ _ d_1 d_2 d42
  have e_6 := (E_arg6 (after opsD (after opsC (after opsB (after opsA (launchContents m c)))))).trans d_6
  have e18 := (E_v18 (after opsD (after opsC (after opsB (after opsA (launchContents m c)))))).trans d18
  -- the logits, the shifted logits, the result
  have g58 := G_v58 (after opsE (after opsD (after opsC (after opsB (after opsA (launchContents m c)))))) _ _ _ _ _ _ _ e_6 e18 e52
  have h5 := H_v5 (after opsG (after opsE (after opsD (after opsC (after opsB (after opsA (launchContents m c))))))) _ _ _ _ _ _ _ g58
  exact K_v59 (after opsH (after opsG (after opsE (after opsD (after opsC (after opsB (after opsA (launchContents m c)))))))) _ _ _ _ _ _ _ h5

/-- No operation of the line writes an argument. -/
theorem ops_arg0 (W : Valuation τ sig (Elt F)) : after ops W (Proc.devRef .tc main_arg0) = W (Proc.devRef .tc main_arg0) := by
  after_results_simp
theorem ops_arg1 (W : Valuation τ sig (Elt F)) : after ops W (Proc.devRef .tc main_arg1) = W (Proc.devRef .tc main_arg1) := by
  after_results_simp
theorem ops_arg2 (W : Valuation τ sig (Elt F)) : after ops W (Proc.devRef .tc main_arg2) = W (Proc.devRef .tc main_arg2) := by
  after_results_simp
theorem ops_arg3 (W : Valuation τ sig (Elt F)) : after ops W (Proc.devRef .tc main_arg3) = W (Proc.devRef .tc main_arg3) := by
  after_results_simp
theorem ops_arg4 (W : Valuation τ sig (Elt F)) : after ops W (Proc.devRef .tc main_arg4) = W (Proc.devRef .tc main_arg4) := by
  after_results_simp
theorem ops_arg5 (W : Valuation τ sig (Elt F)) : after ops W (Proc.devRef .tc main_arg5) = W (Proc.devRef .tc main_arg5) := by
  after_results_simp
theorem ops_arg6 (W : Valuation τ sig (Elt F)) : after ops W (Proc.devRef .tc main_arg6) = W (Proc.devRef .tc main_arg6) := by
  after_results_simp

/-! ## The run -/

/-- On every device, for any float values, from any memory with zero counters: every weakly fair execution of @main
    terminates with the result at the last stage's value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59) = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v59).trans (after_v59 m c),
      (h c main_arg0).trans (ops_arg0 (launchContents m c)),
      (h c main_arg1).trans (ops_arg1 (launchContents m c)),
      (h c main_arg2).trans (ops_arg2 (launchContents m c)),
      (h c main_arg3).trans (ops_arg3 (launchContents m c)),
      (h c main_arg4).trans (ops_arg4 (launchContents m c)),
      (h c main_arg5).trans (ops_arg5 (launchContents m c)),
      (h c main_arg6).trans (ops_arg6 (launchContents m c))⟩)
    (run_seq scopedRefs_eq scopedSems_eq defs main (fun _ => ops) main_eq (fun _ => ops_sub) m ρ)

end Cert.ReferenceIdeal.Staged

end
-- ==== Proof.lean ====
/-
  A two-layer graph convolution with symmetric degree normalisation, followed by a row-wise log-softmax, on a
  graph of 50000 nodes and 1.6 million edges: the kernel program and its reference compute the same array on the
  extended reals.

  One layer maps node features X to  D_in · A · (D_out · X · W) + b : scale each node's row by the inverse square root
  of its out-degree, multiply by the weights, sum over every node's in-neighbours, scale by the inverse square root of
  the in-degree, add the bias. The reference does this twice and applies log-softmax to the rows. The kernel program
  computes the degrees and carries rows along the edges with the same host operations as the reference, and does
  everything else in three kernel regions, each walking the rows in 10 blocks of 5000: the scaled product of layer 1;
  the end of layer 1 fused with the scaled product of layer 2; the end of layer 2 fused with the log-softmax.

  The proof reads both programs as ONE function of the seven arguments (`Network.network`): three dense steps, each a
  formula at an index (r, c) (`GraphLayers`), joined by two edge steps that are the same host computation in both
  programs and are never opened (`EdgeStep`).
    * Kernel side: each region's blocks are restrictions of its dense step to the block's rows, and the blocks cover the
      array (`Dense1Kernel`, `Dense2Kernel`, `Dense3Kernel`); the contents at the boundaries between the program's
      segments chain these with the edge steps (`KernelFold`), over the run of the segments (`KernelResultRun`).
    * Reference side: its two products and its log-softmax are the same three dense steps (`RefLayers`), over its run
      read stage by stage (`RefStaged`).
  Where the two spellings differ the laws used are 0 + x = x (a product accumulated from zero), max(−∞, x) = x (a
  maximum taken from −∞), and that a vector reshaped into a column or a row is its broadcast into that column or row;
  a change of float format is the identity on the extended reals. None of this needs the inputs to be finite, so the
  precondition is never opened. The idealized kernel is the kernel's own text read on the extended reals (no rewrite
  was applied), so there is nothing to preserve beyond that.
-/
import proofs.«110680_j63376537420316_1_alg».proof.Defs
import proofs.«110680_j63376537420316_1_alg».proof.Proof.Gen.Kernel
import proofs.«110680_j63376537420316_1_alg».proof.Proof.Gen.Kernel.Skeleton
import proofs.«110680_j63376537420316_1_alg».proof.Proof.Gen.Kernel.Launch
import proofs.«110680_j63376537420316_1_alg».proof.Proof.Gen.Kernel.Points
import proofs.«110680_j63376537420316_1_alg».proof.Proof.Gen.Kernel.Frame
import proofs.«110680_j63376537420316_1_alg».proof.Proof.Gen.KernelIdeal
import proofs.«110680_j63376537420316_1_alg».proof.Proof.Gen.KernelIdeal.Skeleton
import proofs.«110680_j63376537420316_1_alg».proof.Proof.Gen.KernelIdeal.Launch
import proofs.«110680_j63376537420316_1_alg».proof.Proof.Gen.KernelIdeal.Points
import proofs.«110680_j63376537420316_1_alg».proof.Proof.Gen.KernelIdeal.Frame
import proofs.«110680_j63376537420316_1_alg».proof.Proof.Gen.ReferenceIdeal
import proofs.«110680_j63376537420316_1_alg».proof.Proof.Gen.Pre_finite_inputs
import proofs.«110680_j63376537420316_1_alg».proof.Proof.KernelResultRun
import proofs.«110680_j63376537420316_1_alg».proof.Proof.KernelFold
import proofs.«110680_j63376537420316_1_alg».proof.Proof.RefStaged
import proofs.«110680_j63376537420316_1_alg».proof.Proof.Network
import Idealize.ShloMosaic.Adequacy
import Idealize.ShloMosaic.Init

noncomputable section

namespace Cert.Proof

open Idealize.ShloMosaic Idealize.SL.Sem

/-- The kernel program runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Staged.run m ρ)

/-- No operation of the kernel was rewritten when it was read on the extended reals. -/
theorem preserves : Cert.preserves_Kernel_KernelIdeal := trivial

/-- From memories agreeing on the arguments both programs end with the network of the arguments in their result array. -/
theorem algebraic : Cert.algebraic_KernelIdeal_ReferenceIdeal := by
  intro m ρ m' ρ' _ hagree
  refine ⟨fun c => Cert.ReferenceIdeal.Network.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.result m ρ c), (h c).2⟩)
      (Cert.KernelIdeal.ResultRun.run_result m ρ)
  · refine (θ_run Cert.ReferenceIdeal.defs _ _).mono (fun r h c => ⟨(h c).1.trans ?_, (h c).2⟩)
      (Cert.ReferenceIdeal.Staged.run m' ρ')
    rw [Cert.ReferenceIdeal.Network.reference_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
